-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S1x1 : Shape := ⟨2, ![1, 1]⟩
abbrev S_ : Shape := ⟨0, ![]⟩
abbrev S1x4096x3 : Shape := ⟨3, ![1, 4096, 3]⟩
abbrev S4096x3 : Shape := ⟨2, ![4096, 3]⟩
abbrev S4096 : Shape := ⟨1, ![4096]⟩
abbrev S4096x1 : Shape := ⟨2, ![4096, 1]⟩
abbrev S1x4096 : Shape := ⟨2, ![1, 4096]⟩
abbrev S256x3 : Shape := ⟨2, ![256, 3]⟩
abbrev S4096x256 : Shape := ⟨2, ![4096, 256]⟩
abbrev S1x128 : Shape := ⟨2, ![1, 128]⟩
abbrev S4096x128 : Shape := ⟨2, ![4096, 128]⟩
abbrev S256 : Shape := ⟨1, ![256]⟩
abbrev S1x256 : Shape := ⟨2, ![1, 256]⟩
abbrev S1x1x256 : Shape := ⟨3, ![1, 1, 256]⟩
abbrev S1 : Shape := ⟨1, ![1]⟩
abbrev S1x1x1 : Shape := ⟨3, ![1, 1, 1]⟩
abbrev S1x4096x1 : Shape := ⟨3, ![1, 4096, 1]⟩

abbrev nBuf : Space → Nat
  | .hbm => 4
  | .vmem => 6
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S1x1, .f32⟩
  | .hbm, ⟨3, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x4096x3, .f32⟩
  | .local _ .vmem, ⟨3, _⟩ => ⟨S1x4096x3, .f32⟩
  | .local _ .vmem, ⟨4, _⟩ => ⟨S1x1, .f32⟩
  | .local _ .vmem, ⟨5, _⟩ => ⟨S1x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v444 : BitVec 1 := Scalar.cmpi .eq arg0 c3_i32
  let v445 : BitVec 32 := Scalar.extui v444
  let c0_i32_78 : BitVec 32 := 0#32
  let v446 : BitVec 1 := Scalar.cmpi .ne v445 c0_i32_78
  v446

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1x1_S_ : S1x1.ShapeCasts S_
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  reduces_S4096x3_S4096 : S4096x3.Reduces [1] S4096
  shapeCasts_S4096_S4096x1 : S4096.ShapeCasts S4096x1
  transposes_S4096x1_p1_0_S1x4096 : S4096x1.Transposes [1, 0] S1x4096
  slices_S4096x3_o0_0_S256x3 : S4096x3.Slices ![0, 0] S256x3
  slices_S1x4096_o0_0_S1x128 : S1x4096.Slices ![0, 0] S1x128
  slices_S4096x256_o0_0_S4096x128 : S4096x256.Slices ![0, 0] S4096x128
  broadcasts_S1x128_S4096x128 : S1x128.Broadcasts S4096x128
  slices_S1x4096_o0_128_S1x128 : S1x4096.Slices ![0, 128] S1x128
  slices_S4096x256_o0_128_S4096x128 : S4096x256.Slices ![0, 128] S4096x128
  broadcasts_S4096x1_S4096x256 : S4096x1.Broadcasts S4096x256
  reduces_S4096x256_S256 : S4096x256.Reduces [0] S256
  shapeCasts_S256_S1x256 : S256.ShapeCasts S1x256
  slices_S1x4096_o0_0_S1x256 : S1x4096.Slices ![0, 0] S1x256
  shapeCasts_S1x256_S1x1x256 : S1x256.ShapeCasts S1x1x256
  reduces_S1x1x256_S1 : S1x1x256.Reduces [1, 2] S1
  shapeCasts_S1_S1x1x1 : S1.ShapeCasts S1x1x1
  inpos_S1x1x1_p0_0_0 : ∀ a, (![0, 0, 0] : Fin 3 → Nat) a < S1x1x1.size a
  slices_S4096x3_o256_0_S256x3 : S4096x3.Slices ![256, 0] S256x3
  slices_S1x4096_o0_256_S1x128 : S1x4096.Slices ![0, 256] S1x128
  slices_S1x4096_o0_384_S1x128 : S1x4096.Slices ![0, 384] S1x128
  slices_S1x4096_o0_256_S1x256 : S1x4096.Slices ![0, 256] S1x256
  slices_S4096x3_o512_0_S256x3 : S4096x3.Slices ![512, 0] S256x3
  slices_S1x4096_o0_512_S1x128 : S1x4096.Slices ![0, 512] S1x128
  slices_S1x4096_o0_640_S1x128 : S1x4096.Slices ![0, 640] S1x128
  slices_S1x4096_o0_512_S1x256 : S1x4096.Slices ![0, 512] S1x256
  slices_S4096x3_o768_0_S256x3 : S4096x3.Slices ![768, 0] S256x3
  slices_S1x4096_o0_768_S1x128 : S1x4096.Slices ![0, 768] S1x128
  slices_S1x4096_o0_896_S1x128 : S1x4096.Slices ![0, 896] S1x128
  slices_S1x4096_o0_768_S1x256 : S1x4096.Slices ![0, 768] S1x256
  slices_S4096x3_o1024_0_S256x3 : S4096x3.Slices ![1024, 0] S256x3
  slices_S1x4096_o0_1024_S1x128 : S1x4096.Slices ![0, 1024] S1x128
  slices_S1x4096_o0_1152_S1x128 : S1x4096.Slices ![0, 1152] S1x128
  slices_S1x4096_o0_1024_S1x256 : S1x4096.Slices ![0, 1024] S1x256
  slices_S4096x3_o1280_0_S256x3 : S4096x3.Slices ![1280, 0] S256x3
  slices_S1x4096_o0_1280_S1x128 : S1x4096.Slices ![0, 1280] S1x128
  slices_S1x4096_o0_1408_S1x128 : S1x4096.Slices ![0, 1408] S1x128
  slices_S1x4096_o0_1280_S1x256 : S1x4096.Slices ![0, 1280] S1x256
  slices_S4096x3_o1536_0_S256x3 : S4096x3.Slices ![1536, 0] S256x3
  slices_S1x4096_o0_1536_S1x128 : S1x4096.Slices ![0, 1536] S1x128
  slices_S1x4096_o0_1664_S1x128 : S1x4096.Slices ![0, 1664] S1x128
  slices_S1x4096_o0_1536_S1x256 : S1x4096.Slices ![0, 1536] S1x256
  slices_S4096x3_o1792_0_S256x3 : S4096x3.Slices ![1792, 0] S256x3
  slices_S1x4096_o0_1792_S1x128 : S1x4096.Slices ![0, 1792] S1x128
  slices_S1x4096_o0_1920_S1x128 : S1x4096.Slices ![0, 1920] S1x128
  slices_S1x4096_o0_1792_S1x256 : S1x4096.Slices ![0, 1792] S1x256
  slices_S4096x3_o2048_0_S256x3 : S4096x3.Slices ![2048, 0] S256x3
  slices_S1x4096_o0_2048_S1x128 : S1x4096.Slices ![0, 2048] S1x128
  slices_S1x4096_o0_2176_S1x128 : S1x4096.Slices ![0, 2176] S1x128
  slices_S1x4096_o0_2048_S1x256 : S1x4096.Slices ![0, 2048] S1x256
  slices_S4096x3_o2304_0_S256x3 : S4096x3.Slices ![2304, 0] S256x3
  slices_S1x4096_o0_2304_S1x128 : S1x4096.Slices ![0, 2304] S1x128
  slices_S1x4096_o0_2432_S1x128 : S1x4096.Slices ![0, 2432] S1x128
  slices_S1x4096_o0_2304_S1x256 : S1x4096.Slices ![0, 2304] S1x256
  slices_S4096x3_o2560_0_S256x3 : S4096x3.Slices ![2560, 0] S256x3
  slices_S1x4096_o0_2560_S1x128 : S1x4096.Slices ![0, 2560] S1x128
  slices_S1x4096_o0_2688_S1x128 : S1x4096.Slices ![0, 2688] S1x128
  slices_S1x4096_o0_2560_S1x256 : S1x4096.Slices ![0, 2560] S1x256
  slices_S4096x3_o2816_0_S256x3 : S4096x3.Slices ![2816, 0] S256x3
  slices_S1x4096_o0_2816_S1x128 : S1x4096.Slices ![0, 2816] S1x128
  slices_S1x4096_o0_2944_S1x128 : S1x4096.Slices ![0, 2944] S1x128
  slices_S1x4096_o0_2816_S1x256 : S1x4096.Slices ![0, 2816] S1x256
  slices_S4096x3_o3072_0_S256x3 : S4096x3.Slices ![3072, 0] S256x3
  slices_S1x4096_o0_3072_S1x128 : S1x4096.Slices ![0, 3072] S1x128
  slices_S1x4096_o0_3200_S1x128 : S1x4096.Slices ![0, 3200] S1x128
  slices_S1x4096_o0_3072_S1x256 : S1x4096.Slices ![0, 3072] S1x256
  slices_S4096x3_o3328_0_S256x3 : S4096x3.Slices ![3328, 0] S256x3
  slices_S1x4096_o0_3328_S1x128 : S1x4096.Slices ![0, 3328] S1x128
  slices_S1x4096_o0_3456_S1x128 : S1x4096.Slices ![0, 3456] S1x128
  slices_S1x4096_o0_3328_S1x256 : S1x4096.Slices ![0, 3328] S1x256
  slices_S4096x3_o3584_0_S256x3 : S4096x3.Slices ![3584, 0] S256x3
  slices_S1x4096_o0_3584_S1x128 : S1x4096.Slices ![0, 3584] S1x128
  slices_S1x4096_o0_3712_S1x128 : S1x4096.Slices ![0, 3712] S1x128
  slices_S1x4096_o0_3584_S1x256 : S1x4096.Slices ![0, 3584] S1x256
  slices_S4096x3_o3840_0_S256x3 : S4096x3.Slices ![3840, 0] S256x3
  slices_S1x4096_o0_3840_S1x128 : S1x4096.Slices ![0, 3840] S1x128
  slices_S1x4096_o0_3968_S1x128 : S1x4096.Slices ![0, 3968] S1x128
  slices_S1x4096_o0_3840_S1x256 : S1x4096.Slices ![0, 3840] S1x256
  reduces_S4096x128_S4096 : S4096x128.Reduces [1] S4096
  shapeCasts_S4096x1_S1x4096x1 : S4096x1.ShapeCasts S1x4096x1
  reduces_S1x4096x1_S1 : S1x4096x1.Reduces [1, 2] S1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  dot_S4096x3_S256x3_S4096x256_1_1_0_0_n_n_wf : DotDims.WF S4096x3 S256x3 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S4x4096x3.size a
  hwx0_0 : ∀ i : grid0.Coords, EltTy.bits .f32 = 32 ∨ (Rect.block (s := S4x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S4x4096x3.size a
  hwx0_1 : ∀ i : grid0.Coords, EltTy.bits .f32 = 32 ∨ (Rect.block (s := S4x4096x3) S1x4096x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S4096x3_S256x3_S4096x256_1_1_0_0_n_n : DotDims S4096x3 S256x3 S4096x256 where
  lhsContracting := [1]
  rhsContracting := [1]
  lhsNonContracting := [0]
  rhsNonContracting := [0]
  lhsBatch := []
  rhsBatch := []
  wf := dot_S4096x3_S256x3_S4096x256_1_1_0_0_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x3, .f32⟩
  | .hbm, ⟨7, _⟩ => ⟨S_, .f32⟩
  | .hbm, ⟨8, _⟩ => ⟨S4x4096, .f32⟩
  | .hbm, ⟨9, _⟩ => ⟨S4x1x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S4x4096x3, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x3, .f32⟩
  | .hbm, ⟨25, _⟩ => ⟨S_, .f32⟩
  | .hbm, ⟨26, _⟩ => ⟨S4x4096, .f32⟩
  | .hbm, ⟨27, _⟩ => ⟨S4x1x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_cst_9 : Ref sig .tc := ⟨.hbm, 42, rfl⟩
abbrev main_v30 : Ref sig .tc := ⟨.hbm, 43, rfl⟩
abbrev main_cst_10 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096_S_d0_1 : S4x4096.ReducesTo [0, 1] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.ChamferSpec.lean ====
/-
  The chamfer loss of two clouds of points in three dimensions, on the extended reals.

  For point sets A, B (n points each, three coordinates), write |A i|² for the squared norm of point i and
  ⟨A i, B j⟩ for the inner product. One program takes, for every i, the least over j of
  (|A i|² + |B j|²) - 2⟨A i, B j⟩ and sums over i, and the same with the clouds exchanged. The other takes the
  scaled products Σ_d A i d · (-2 · B j d) once, forms the least over j of |B j|² + (that product) and adds |A i|²
  afterwards; the column direction likewise. For REAL coordinates the two are the same number:
    * Σ_d a·(-2·b) = -(2·Σ_d a·b) (distributivity, which needs the coordinates finite);
    * a real number added to every term of a minimum can be added after it (x + ⊤ = ⊤ needs x ≠ ⊥).
  The mean over the 4·4096 points is a division by 16384 on one side and a product with 2^-14 on the other, and a
  non-negative real factor distributes over a sum of extended reals.
-/
import Mathlib

noncomputable section

namespace Cert.Chamfer

open Finset

variable {n : ℕ}

/-- The squared norm of point i. -/
def sqnorm (A : Fin n → Fin 3 → EReal) (i : Fin n) : EReal := ∑ d : Fin 3, A i d * A i d

/-- The inner product of A i with B j, each coordinate of B j scaled by c first. -/
def ip (c : EReal) (A B : Fin n → Fin 3 → EReal) (i j : Fin n) : EReal := ∑ d : Fin 3, A i d * (c * B j d)

/-- The plain inner product of A i with B j. -/
def dot (A B : Fin n → Fin 3 → EReal) (i j : Fin n) : EReal := ∑ d : Fin 3, A i d * B j d

/-- The least over i of |A i|² + (scaled product of A i and B j): the column direction, before |B j|² is added. -/
def colmin (c : EReal) (A B : Fin n → Fin 3 → EReal) (j : Fin n) : EReal :=
  univ.inf fun i => sqnorm A i + ip c A B i j

/-- The least over j of |B j|² + (scaled product of A i and B j): the row direction, before |A i|² is added. -/
def rowmin (c : EReal) (A B : Fin n → Fin 3 → EReal) (i : Fin n) : EReal :=
  univ.inf fun j => sqnorm B j + ip c A B i j

/-- One batch of the fused program: the column direction's sum, then the row direction's. -/
def tot (c : EReal) (A B : Fin n → Fin 3 → EReal) : EReal :=
  (∑ j, (colmin c A B j + sqnorm B j)) + ∑ i, (rowmin c A B i + sqnorm A i)

/-- The squared distance from A i to the nearest point of B, as the plain program writes it. -/
def near (two : EReal) (A B : Fin n → Fin 3 → EReal) (i : Fin n) : EReal :=
  univ.inf fun j => (sqnorm A i + sqnorm B j) - two * dot A B i j

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section real
variable (a b : Fin n → Fin 3 → ℝ)

/-- For real coordinates the squared norm is a real number. -/
theorem sq_coe (i : Fin n) : sqnorm (fun i d => ((a i d : ℝ) : EReal)) i = ((∑ d : Fin 3, a i d * a i d : ℝ) : EReal) := by
  unfold sqnorm
  rw [coe_sum]
  exact Finset.sum_congr rfl fun d _ => (EReal.coe_mul _ _).symm

theorem sq_ne_bot (i : Fin n) : sqnorm (fun i d => ((a i d : ℝ) : EReal)) i ≠ ⊥ := by
  rw [sq_coe]; exact EReal.coe_ne_bot _

/-- For real coordinates the product scaled by -2 is minus twice the plain product. -/
theorem ip_eq_neg (i j : Fin n) :
    ip ((-2 : ℝ) : EReal) (fun i d => ((a i d : ℝ) : EReal)) (fun i d => ((b i d : ℝ) : EReal)) i j
      = -(((2 : ℝ) : EReal) * dot (fun i d => ((a i d : ℝ) : EReal)) (fun i d => ((b i d : ℝ) : EReal)) i j) := by
  unfold ip dot
  have h1 : (∑ d : Fin 3, ((a i d : ℝ) : EReal) * (((-2 : ℝ) : EReal) * ((b j d : ℝ) : EReal)))
      = ((∑ d : Fin 3, a i d * (-2 * b j d) : ℝ) : EReal) := by
    rw [coe_sum]
    exact Finset.sum_congr rfl fun d _ => by rw [EReal.coe_mul, EReal.coe_mul]
  have h2 : (∑ d : Fin 3, ((a i d : ℝ) : EReal) * ((b j d : ℝ) : EReal)) = ((∑ d : Fin 3, a i d * b j d : ℝ) : EReal) := by
    rw [coe_sum]
    exact Finset.sum_congr rfl fun d _ => (EReal.coe_mul _ _).symm
  rw [h1, h2, ← EReal.coe_mul, ← EReal.coe_neg]
  congr 1
  rw [Finset.mul_sum, ← Finset.sum_neg_distrib]
  exact Finset.sum_congr rfl fun d _ => by ring

/-- The plain product does not see the order of the two points. -/
theorem dot_comm (A B : Fin n → Fin 3 → EReal) (i j : Fin n) : dot A B i j = dot B A j i := by
  unfold dot
  exact Finset.sum_congr rfl fun d _ => mul_comm _ _

end real

/-- An extended real other than -∞ added to every term of a minimum (from +∞) can be added after it. -/
theorem inf_add_left {ι : Type*} (s : Finset ι) (x : EReal) (hx : x ≠ ⊥) (f : ι → EReal) :
    (s.inf fun j => x + f j) = x + s.inf f := by
  classical
  induction s using Finset.induction_on with
  | empty => simp [EReal.add_top_of_ne_bot hx]
  | insert k s hk ih =>
    rw [Finset.inf_insert, Finset.inf_insert, ih]
    exact ((add_right_mono (a := x)).map_inf (f k) (s.inf f)).symm

section real
variable (a b : Fin n → Fin 3 → ℝ)

/-- The nearest squared distance is |A i|² plus the row minimum of the scaled form. -/
theorem near_eq (i : Fin n) :
    near ((2 : ℝ) : EReal) (fun i d => ((a i d : ℝ) : EReal)) (fun i d => ((b i d : ℝ) : EReal)) i
      = rowmin ((-2 : ℝ) : EReal) (fun i d => ((a i d : ℝ) : EReal)) (fun i d => ((b i d : ℝ) : EReal)) i
        + sqnorm (fun i d => ((a i d : ℝ) : EReal)) i := by
  unfold near rowmin
  rw [add_comm, ← inf_add_left _ _ (sq_ne_bot a i)]
  refine congrArg (Finset.inf univ) (funext fun j => ?_)
  rw [sub_eq_add_neg, ← ip_eq_neg, add_assoc]

/-- The same with the clouds exchanged: |B j|² plus the column minimum of the scaled form. -/
theorem near_swap_eq (j : Fin n) :
    near ((2 : ℝ) : EReal) (fun i d => ((b i d : ℝ) : EReal)) (fun i d => ((a i d : ℝ) : EReal)) j
      = colmin ((-2 : ℝ) : EReal) (fun i d => ((a i d : ℝ) : EReal)) (fun i d => ((b i d : ℝ) : EReal)) j
        + sqnorm (fun i d => ((b i d : ℝ) : EReal)) j := by
  unfold near colmin
  rw [add_comm, ← inf_add_left _ _ (sq_ne_bot b j)]
  refine congrArg (Finset.inf univ) (funext fun i => ?_)
  rw [sub_eq_add_neg, dot_comm, ← ip_eq_neg, add_assoc]

/-- One batch: the fused program's total is the two directions' sums of nearest squared distances. -/
theorem tot_eq :
    tot ((-2 : ℝ) : EReal) (fun i d => ((a i d : ℝ) : EReal)) (fun i d => ((b i d : ℝ) : EReal))
      = (∑ j, near ((2 : ℝ) : EReal) (fun i d => ((b i d : ℝ) : EReal)) (fun i d => ((a i d : ℝ) : EReal)) j)
        + ∑ i, near ((2 : ℝ) : EReal) (fun i d => ((a i d : ℝ) : EReal)) (fun i d => ((b i d : ℝ) : EReal)) i := by
  unfold tot
  congr 1
  · exact Finset.sum_congr rfl fun j _ => (near_swap_eq a b j).symm
  · exact Finset.sum_congr rfl fun i _ => (near_eq a b i).symm

end real

/-- The mean over four batches: the running total of (column part + row part), scaled by a non-negative real, is the
    two directions' totals each scaled. -/
theorem mean_four (S R : Fin 4 → EReal) (c : ℝ) (hc : 0 ≤ c) :
    ((((0 + (S 0 + R 0)) + (S 1 + R 1)) + (S 2 + R 2)) + (S 3 + R 3)) * (c : EReal)
      = (0 + ∑ k, R k) * (c : EReal) + (0 + ∑ k, S k) * (c : EReal) := by
  rw [Fin.sum_univ_four, Fin.sum_univ_four, zero_add, zero_add, zero_add,
    ← EReal.right_distrib_of_nonneg_of_ne_top (EReal.coe_nonneg.mpr hc) (EReal.coe_ne_top c)]
  congr 1
  abel

end Cert.Chamfer

end
-- ==== Proof.ChamferConsts.lean ====
/-
  The float literals the two programs spell, as the extended reals their patterns denote:
  -2 and 2 (the scale of the inner products), 16384 = 4 * 4096 and its reciprocal 2^-14 (the mean),
  and the pattern of +infinity (the neutral element of a minimum).
-/
import Idealize.ShloMosaic.PureOps.Ideal
import Idealize.ShloMosaic.PureOps.Ideal.Laws

noncomputable section

namespace Cert.Chamfer

open Idealize.ShloMosaic

/-- The pattern of -2.0 denotes the real -2. -/
theorem ofBits_neg_two : Ideal.ofBits .f32 0xC0000000#32 = ((-2 : ℝ) : EReal) := by
  simp [Ideal.ofBits, Ideal.ieee, -EReal.coe_mul]; norm_num

/-- The pattern of 2.0 denotes the real 2. -/
theorem ofBits_two : Ideal.ofBits .f32 0x40000000#32 = ((2 : ℝ) : EReal) := by
  simp [Ideal.ofBits, Ideal.ieee, -EReal.coe_mul]; norm_num

/-- The pattern of 16384.0 denotes the real 16384. -/
theorem ofBits_16384 : Ideal.ofBits .f32 0x46800000#32 = ((16384 : ℝ) : EReal) := by
  simp [Ideal.ofBits, Ideal.ieee, -EReal.coe_mul]; norm_num

/-- The pattern of 2^-14 denotes the real 1/16384. -/
theorem ofBits_inv_16384 : Ideal.ofBits .f32 0x38800000#32 = ((1 / 16384 : ℝ) : EReal) := by
  simp [Ideal.ofBits, Ideal.ieee, -EReal.coe_mul]; norm_num

/-- The pattern of +infinity denotes the top element. -/
theorem ofBits_top : Ideal.ofBits .f32 0x7F800000#32 = (⊤ : EReal) := by
  simp [Ideal.ofBits, Ideal.ieee]

end Cert.Chamfer

end
-- ==== Proof.ChamferReference.lean ====
/-
  The plain program, read at an index on the extended reals.

  It forms, for every batch n and every pair (i, k) of points, (|a_i|² + |b_k|²) - 2·⟨a_i, b_k⟩, takes the least over k
  from +∞ — the squared distance from a_i to the nearest point of the other cloud —, sums over all (n, i), divides by
  16384, and adds the same with the two clouds exchanged. The broadcasts only repeat a row's or a column's squared
  norm; each squared norm is a sum from the literal 0.
-/
import proofs.«146739_g19121194402254_cont_8to1_1531_27_alg».proof.Proof.Gen.ReferenceIdeal.Read
import proofs.«146739_g19121194402254_cont_8to1_1531_27_alg».proof.Proof.ChamferSpec
import proofs.«146739_g19121194402254_cont_8to1_1531_27_alg».proof.Proof.ChamferConsts
import Idealize.ShloMosaic.Lib.ValueIdx
import Idealize.ShloMosaic.PureOps.Ideal.Laws

noncomputable section

open Idealize.ShloMosaic Idealize.ShloMosaic.ValueIdx Idealize.ShloMosaic.TcCoe Finset

namespace Cert.ReferenceIdeal.RefValue

open Cert.ReferenceIdeal Cert.ReferenceIdeal.Gen Cert.ReferenceIdeal.Read Cert.Chamfer

/-- Batch n of a 4×4096×3 array, as a cloud of 4096 points. -/
def batch (x : (⟨S4x4096x3, .f32⟩ : BufTy).Contents (Elt Ideal)) (n : Fin 4) : Fin 4096 → Fin 3 → EReal :=
  fun i d => x (ix3 n i d)

/-- The literal 2 the plain program scales the inner products by. -/
abbrev two : EReal := Ideal.ofBits .f32 0x40000000#32

variable (x0 x1 : (⟨S4x4096x3, .f32⟩ : BufTy).Contents (Elt Ideal))

/-- The squared norm of point i of batch n of the first argument, as the program spells it for rows (from the literal 0). -/
theorem v1_apply (n : Fin 4) (i : Fin 4096) : val_main_v1 (F := Ideal) x0 (ix2 n i) = sqnorm (batch x0 n) i := by
  rw [val_main_v1_apply]
  show Ideal.ofBits .f32 0x00000000#32 + _ = _
  rw [Ideal.ofBits_zero_f32, zero_add]
  unfold sqnorm batch
  refine Finset.sum_congr rfl fun d _ => ?_
  rw [val_main_v0_apply]
  have e : idx_main_v1 (ix2 n i) d = ix3 n i d := funext fun a => Fin.ext (by
    match a with | ⟨0, _⟩ => rfl | ⟨1, _⟩ => rfl | ⟨2, _⟩ => rfl)
  rw [e]; rfl

theorem v4_apply (n : Fin 4) (k : Fin 4096) : val_main_v4 (F := Ideal) x1 (ix2 n k) = sqnorm (batch x1 n) k := by
  rw [val_main_v4_apply]
  show Ideal.ofBits .f32 0x00000000#32 + _ = _
  rw [Ideal.ofBits_zero_f32, zero_add]
  unfold sqnorm batch
  refine Finset.sum_congr rfl fun d _ => ?_
  rw [val_main_v3_apply]
  have e : idx_main_v4 (ix2 n k) d = ix3 n k d := funext fun a => Fin.ext (by
    match a with | ⟨0, _⟩ => rfl | ⟨1, _⟩ => rfl | ⟨2, _⟩ => rfl)
  rw [e]; rfl

theorem v15_apply (n : Fin 4) (j : Fin 4096) : val_main_v15 (F := Ideal) x1 (ix2 n j) = sqnorm (batch x1 n) j := by
  rw [val_main_v15_apply]
  show Ideal.ofBits .f32 0x00000000#32 + _ = _
  rw [Ideal.ofBits_zero_f32, zero_add]
  unfold sqnorm batch
  refine Finset.sum_congr rfl fun d _ => ?_
  rw [val_main_v14_apply]
  have e : idx_main_v15 (ix2 n j) d = ix3 n j d := funext fun a => Fin.ext (by
    match a with | ⟨0, _⟩ => rfl | ⟨1, _⟩ => rfl | ⟨2, _⟩ => rfl)
  rw [e]; rfl

theorem v18_apply (n : Fin 4) (i : Fin 4096) : val_main_v18 (F := Ideal) x0 (ix2 n i) = sqnorm (batch x0 n) i := by
  rw [val_main_v18_apply]
  show Ideal.ofBits .f32 0x00000000#32 + _ = _
  rw [Ideal.ofBits_zero_f32, zero_add]
  unfold sqnorm batch
  refine Finset.sum_congr rfl fun d _ => ?_
  rw [val_main_v17_apply]
  have e : idx_main_v18 (ix2 n i) d = ix3 n i d := funext fun a => Fin.ext (by
    match a with | ⟨0, _⟩ => rfl | ⟨1, _⟩ => rfl | ⟨2, _⟩ => rfl)
  rw [e]; rfl

/-- The inner products of the first direction. -/
theorem v6_apply (n : Fin 4) (i k : Fin 4096) :
    val_main_v6 (F := Ideal) x0 x1 (ix3 n i k) = dot (batch x0 n) (batch x1 n) i k := by
  rw [val_main_v6_apply]
  unfold dot batch
  refine Finset.sum_congr rfl fun d _ => ?_
  have el : lidx_main_v6 (ix3 n i k) d = ix3 n i d := funext fun a => Fin.ext (by
    match a with | ⟨0, _⟩ => rfl | ⟨1, _⟩ => rfl | ⟨2, _⟩ => rfl)
  have er : ridx_main_v6 (ix3 n i k) d = ix3 n k d := funext fun a => Fin.ext (by
    match a with | ⟨0, _⟩ => rfl | ⟨1, _⟩ => rfl | ⟨2, _⟩ => rfl)
  rw [el, er]

/-- The inner products of the second direction: the clouds exchanged. -/
theorem v20_apply (n : Fin 4) (j i : Fin 4096) :
    val_main_v20 (F := Ideal) x0 x1 (ix3 n j i) = dot (batch x1 n) (batch x0 n) j i := by
  rw [val_main_v20_apply]
  unfold dot batch
  refine Finset.sum_congr rfl fun d _ => ?_
  have el : lidx_main_v20 (ix3 n j i) d = ix3 n j d := funext fun a => Fin.ext (by
    match a with | ⟨0, _⟩ => rfl | ⟨1, _⟩ => rfl | ⟨2, _⟩ => rfl)
  have er : ridx_main_v20 (ix3 n j i) d = ix3 n i d := funext fun a => Fin.ext (by
    match a with | ⟨0, _⟩ => rfl | ⟨1, _⟩ => rfl | ⟨2, _⟩ => rfl)
  rw [el, er]

/-- The first direction's term at (n, i, k). -/
theorem v12_apply (n : Fin 4) (i k : Fin 4096) :
    val_main_v12 (F := Ideal) x0 x1 (ix3 n i k)
      = (sqnorm (batch x0 n) i + sqnorm (batch x1 n) k) - two * dot (batch x0 n) (batch x1 n) i k := by
  have e7 : idx_main_v2 (idx_main_v7 (ix3 n i k)) = ix2 n i := funext fun a => Fin.ext (by
    match a with | ⟨0, _⟩ => rfl | ⟨1, _⟩ => rfl)
  have e8 : idx_main_v5 (idx_main_v8 (ix3 n i k)) = ix2 n k := funext fun a => Fin.ext (by
    match a with | ⟨0, _⟩ => rfl | ⟨1, _⟩ => rfl)
  rw [val_main_v12_apply, val_main_v9_apply, val_main_v11_apply, val_main_v7_apply, val_main_v8_apply, val_main_v2_apply,
    val_main_v5_apply, e7, e8, v1_apply, v4_apply, val_main_v10_apply, val_main_cst_1_apply, v6_apply]
  rfl

/-- The second direction's term at (n, j, i). -/
theorem v26_apply (n : Fin 4) (j i : Fin 4096) :
    val_main_v26 (F := Ideal) x0 x1 (ix3 n j i)
      = (sqnorm (batch x1 n) j + sqnorm (batch x0 n) i) - two * dot (batch x1 n) (batch x0 n) j i := by
  have e21 : idx_main_v16 (idx_main_v21 (ix3 n j i)) = ix2 n j := funext fun a => Fin.ext (by
    match a with | ⟨0, _⟩ => rfl | ⟨1, _⟩ => rfl)
  have e22 : idx_main_v19 (idx_main_v22 (ix3 n j i)) = ix2 n i := funext fun a => Fin.ext (by
    match a with | ⟨0, _⟩ => rfl | ⟨1, _⟩ => rfl)
  rw [val_main_v26_apply, val_main_v23_apply, val_main_v25_apply, val_main_v21_apply, val_main_v22_apply, val_main_v16_apply,
    val_main_v19_apply, e21, e22, v15_apply, v18_apply, val_main_v24_apply, val_main_cst_5_apply, v20_apply]
  rfl

/-- Position (n, i) with k inserted on the last axis is (n, i, k). -/
theorem lift_last (h : Shape.Reduces S4x4096x4096 [2] S4x4096) (n : Fin 4) (i k : Fin 4096) :
    h.lift (ix2 n i) k = ix3 n i k := by
  funext ax
  apply Fin.ext
  match ax with
  | ⟨0, _⟩ => rfl
  | ⟨1, _⟩ => rfl
  | ⟨2, _⟩ => rfl

/-- The squared distance from point i of batch n of the first cloud to the nearest point of the second. -/
theorem v13_apply (n : Fin 4) (i : Fin 4096) :
    val_main_v13 (F := Ideal) x0 x1 (ix2 n i) = near two (batch x0 n) (batch x1 n) i := by
  have hr : Shape.Reduces S4x4096x4096 [2] S4x4096 := by decide
  unfold val_main_v13
  rw [Host.reduce_eq_fold_single FloatOps.minimumf _ _ reducesTo_S4x4096x4096_S4x4096_d2 hr h_S_]
  have e : (val_main_v12 (F := Ideal) x0 x1 ∘ hr.lift (ix2 n i))
      = fun k : Fin 4096 => (sqnorm (batch x0 n) i + sqnorm (batch x1 n) k) - two * dot (batch x0 n) (batch x1 n) i k :=
    funext fun k => (congrArg (val_main_v12 (F := Ideal) x0 x1) (lift_last hr n i k)).trans (v12_apply x0 x1 n i k)
  rw [e]
  show univ.fold min (Ideal.ofBits .f32 0x7F800000#32) _ = _
  rw [ofBits_top]
  rfl

/-- The same for the second direction. -/
theorem v27_apply (n : Fin 4) (j : Fin 4096) :
    val_main_v27 (F := Ideal) x0 x1 (ix2 n j) = near two (batch x1 n) (batch x0 n) j := by
  have hr : Shape.Reduces S4x4096x4096 [2] S4x4096 := by decide
  unfold val_main_v27
  rw [Host.reduce_eq_fold_single FloatOps.minimumf _ _ reducesTo_S4x4096x4096_S4x4096_d2 hr h_S_]
  have e : (val_main_v26 (F := Ideal) x0 x1 ∘ hr.lift (ix2 n j))
      = fun i : Fin 4096 => (sqnorm (batch x1 n) j + sqnorm (batch x0 n) i) - two * dot (batch x1 n) (batch x0 n) j i :=
    funext fun i => (congrArg (val_main_v26 (F := Ideal) x0 x1) (lift_last hr n j i)).trans (v26_apply x0 x1 n j i)
  rw [e]
  show univ.fold min (Ideal.ofBits .f32 0x7F800000#32) _ = _
  rw [ofBits_top]
  rfl

/-- The plain program's result: the two directions' sums of nearest squared distances, each from the literal 0 and
    divided by the literal 16384. -/
theorem result_apply (y : S_.Idx) :
    val_main_v32 (F := Ideal) x0 x1 y
      = Ideal.div (0 + ∑ n : Fin 4, ∑ i : Fin 4096, near two (batch x0 n) (batch x1 n) i) (Ideal.ofBits .f32 0x46800000#32)
        + Ideal.div (0 + ∑ n : Fin 4, ∑ j : Fin 4096, near two (batch x1 n) (batch x0 n) j) (Ideal.ofBits .f32 0x46800000#32) := by
  rw [val_main_v32_apply, val_main_v29_apply, val_main_v31_apply, val_main_v28_apply, val_main_v30_apply, sum_idx2, sum_idx2]
  show Ideal.div (Ideal.ofBits .f32 0x00000000#32 + _) _ + Ideal.div (Ideal.ofBits .f32 0x00000000#32 + _) _ = _
  rw [Ideal.ofBits_zero_f32]
  simp only [v13_apply, v27_apply]
  rfl

end Cert.ReferenceIdeal.RefValue

end
-- ==== Proof.LibTransposedDot.lean ====
/-
  A matrix product whose right operand is contracted on its LAST axis, M×K by N×K (the left operand times the transpose
  of the right), at the ideal values, read at an index as the sum over the contracted coordinate of the products of the
  operands' entries: (x · wᵀ)(r, c) = Σ_k x(r, k) · w(c, k) — for the vector unit's matmul into the zero accumulator and
  for the host's dot_general alike. The contraction has one axis, of extent K: its index is that one coordinate; the left
  operand's index at (r, c) and k is (r, k), the right operand's is (c, k).
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

variable {M K N : Nat}

/-- The one-axis contraction index of the product is its coordinate. -/
def contrE (M K N : Nat) : (DotDims.transposedRhs M K N).contr.Idx ≃ Fin K :=
  contrEquiv1 (DotDims.transposedRhs M K N) K rfl rfl

theorem contrE_symm_val (k : Fin K) :
    ((contrE M K N).symm k ⟨0, by have h : (DotDims.transposedRhs M K N).contr.rank = 1 := rfl; omega⟩ : ℕ) = k.val :=
  contrEquiv1_symm_val (DotDims.transposedRhs M K N) K rfl rfl k

/-- The left operand is read at (row of the result, contracted coordinate). -/
theorem lhsIdx_eq (r : Fin M) (c : Fin N) (k : Fin K) :
    (DotDims.transposedRhs M K N).lhsIdx (ix2 r c) ((contrE M K N).symm k) = ix2 r k := by
  funext a
  apply Fin.ext
  match a with
  | ⟨0, _⟩ => rfl
  | ⟨1, _⟩ => exact ((DotDims.transposedRhs M K N).lhsIdx_val_of_single (cl := 1) rfl (ix2 r c) _).trans (contrE_symm_val k)

/-- The right operand is read at (column of the result, contracted coordinate). -/
theorem rhsIdx_eq (r : Fin M) (c : Fin N) (k : Fin K) :
    (DotDims.transposedRhs M K N).rhsIdx (ix2 r c) ((contrE M K N).symm k) = ix2 c k := by
  funext a
  apply Fin.ext
  match a with
  | ⟨0, _⟩ => rfl
  | ⟨1, _⟩ => exact ((DotDims.transposedRhs M K N).rhsIdx_val_of_single (cr := 1) rfl (ix2 r c) _).trans (contrE_symm_val k)

/-- The sum over the contraction index, re-indexed by the contracted coordinate. -/
theorem sum_contr (f : (⟨2, ![M, K]⟩ : Shape).Idx → EReal) (g : (⟨2, ![N, K]⟩ : Shape).Idx → EReal) (r : Fin M) (c : Fin N) :
    (∑ k : (DotDims.transposedRhs M K N).contr.Idx,
        f ((DotDims.transposedRhs M K N).lhsIdx (ix2 r c) k) * g ((DotDims.transposedRhs M K N).rhsIdx (ix2 r c) k))
      = ∑ k : Fin K, f (ix2 r k) * g (ix2 c k) := by
  rw [← Equiv.sum_comp (contrE M K N).symm]
  exact Finset.sum_congr rfl fun k _ => by rw [lhsIdx_eq, rhsIdx_eq]

/-- The vector unit's matmul into the zero accumulator, at (r, c). -/
theorem matmul_zero_apply {φ₁ φ₂ : FTy} (prec : Option ContractPrecision)
    (x : FVec Ideal ⟨2, ![M, K]⟩ φ₁) (w : FVec Ideal ⟨2, ![N, K]⟩ φ₂) (r : Fin M) (c : Fin N) :
    FloatOps.matmul (DotDims.transposedRhs M K N) prec x w (constant (⟨2, ![M, N]⟩ : Shape) .f32 0x00000000#32) (ix2 r c)
      = ∑ k : Fin K, x (ix2 r k) * w (ix2 c k) :=
  (Ideal.matmul_constant_zero_apply (DotDims.transposedRhs M K N) prec x w (ix2 r c)).trans (sum_contr x w r c)

/-- The host's dot_general, at (r, c). -/
theorem dotGeneral_apply {φ₁ φ₂ : FTy} (prec : Option ContractPrecision) (sched : HostSchedule)
    (x : FVec Ideal ⟨2, ![M, K]⟩ φ₁) (w : FVec Ideal ⟨2, ![N, K]⟩ φ₂) (r : Fin M) (c : Fin N) :
    FloatOps.dotGeneral (DotDims.transposedRhs M K N) prec sched x w (ix2 r c) = ∑ k : Fin K, x (ix2 r k) * w (ix2 c k) :=
  (Ideal.dotGeneral_apply (DotDims.transposedRhs M K N) prec sched x w (ix2 r c)).trans (sum_contr x w r c)

end Idealize.ShloMosaic.TransposedDot

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibAxisMin.lean ====
/-
  Reductions of a two-axis array along one axis, and total sums of arrays with a single long axis, on the extended
  reals, read at an index.

  * The vector unit's minimum over the FIRST axis of an a×b array from the pattern of +∞, at column c, is the least over
    r of X(r, c); over the SECOND axis, at row p, the least over k of X(p, k) — each as a Finset.inf, whose neutral
    element is +∞.
  * Its sum over the second axis at row p is Σ_k X(p, k).
  * Its sum over both trailing axes of a 1×1×n array is Σ_j Y(0, 0, j); of a 1×n×1 array, Σ_j Y(0, j, 0): the indices
    of such an array are the coordinates of its one long axis (lastEquiv, midEquiv).
-/
import Idealize.ShloMosaic.PureOps.Ideal.Laws
import Idealize.ShloMosaic.Lib.ValueIdx

noncomputable section

open Idealize.ShloMosaic Idealize.ShloMosaic.ValueIdx Finset

namespace Idealize.ShloMosaic.AxisMin

/-- The pattern of +∞ denotes the top element of the extended reals. -/
theorem ofBits_inf : Ideal.ofBits .f32 0x7F800000#32 = (⊤ : EReal) := by
  simp [Ideal.ofBits, Ideal.ieee]

/-! ## Sums over a shape with one long axis -/

/-- The indices of a 1×1×n array are the coordinates of its last axis. -/
def lastEquiv (n : ℕ) : Fin n ≃ (⟨3, ![1, 1, n]⟩ : Shape).Idx where
  toFun j := ix3 (0 : Fin 1) (0 : Fin 1) j
  invFun y := y 2
  left_inv j := rfl
  right_inv y := funext fun a => Fin.ext (by
    match a with
    | ⟨0, _⟩ => have h : (y 0).val < 1 := (y 0).isLt; show 0 = (y 0).val; omega
    | ⟨1, _⟩ => have h : (y 1).val < 1 := (y 1).isLt; show 0 = (y 1).val; omega
    | ⟨2, _⟩ => rfl)

/-- The indices of a 1×n×1 array are the coordinates of its middle axis. -/
def midEquiv (n : ℕ) : Fin n ≃ (⟨3, ![1, n, 1]⟩ : Shape).Idx where
  toFun j := ix3 (0 : Fin 1) j (0 : Fin 1)
  invFun y := y 1
  left_inv j := rfl
  right_inv y := funext fun a => Fin.ext (by
    match a with
    | ⟨0, _⟩ => have h : (y 0).val < 1 := (y 0).isLt; show 0 = (y 0).val; omega
    | ⟨1, _⟩ => rfl
    | ⟨2, _⟩ => have h : (y 2).val < 1 := (y 2).isLt; show 0 = (y 2).val; omega)

/-! ## Reductions -/

/-- Column c with r inserted on the first axis is (r, c). -/
theorem lift_rows {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- Row p with k inserted on the second axis is (p, k). -/
theorem lift_cols {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- The least over the rows, from +∞, at column c. -/
theorem min_rows_apply {a b : ℕ} (X : FVec Ideal ⟨2, ![a, b]⟩ .f32) (h : Shape.Reduces ⟨2, ![a, b]⟩ [0] ⟨1, ![b]⟩)
    (hφ : FKind.Formats .f32) (hacc : (0x7F800000#32 : BitVec 32) = FKind.minimumf.neutral .f32 hφ) (c : Fin b) :
    multiReduction .minimumf [0] ⟨1, ![b]⟩ X 0x7F800000#32 h hφ hacc (ix1 c) = univ.inf fun r : Fin a => X (ix2 r c) := by
  refine ((multiReduction_minimumf_eq_fold X _ h hφ hacc (ix1 c)).trans (h.fold_filter_drop_single _ _ X (ix1 c))).trans ?_
  have e : (X ∘ h.lift (ix1 c)) = fun r : Fin a => X (ix2 r c) := funext fun r => congrArg X (lift_rows h c r)
  rw [e]
  show univ.fold min (Ideal.ofBits .f32 0x7F800000#32) _ = _
  rw [ofBits_inf]
  rfl

/-- The least over the columns, from +∞, at row p. -/
theorem min_cols_apply {a b : ℕ} (X : FVec Ideal ⟨2, ![a, b]⟩ .f32) (h : Shape.Reduces ⟨2, ![a, b]⟩ [1] ⟨1, ![a]⟩)
    (hφ : FKind.Formats .f32) (hacc : (0x7F800000#32 : BitVec 32) = FKind.minimumf.neutral .f32 hφ) (p : Fin a) :
    multiReduction .minimumf [1] ⟨1, ![a]⟩ X 0x7F800000#32 h hφ hacc (ix1 p) = univ.inf fun k : Fin b => X (ix2 p k) := by
  refine ((multiReduction_minimumf_eq_fold X _ h hφ hacc (ix1 p)).trans (h.fold_filter_drop_single _ _ X (ix1 p))).trans ?_
  have e : (X ∘ h.lift (ix1 p)) = fun k : Fin b => X (ix2 p k) := funext fun k => congrArg X (lift_cols h p k)
  rw [e]
  show univ.fold min (Ideal.ofBits .f32 0x7F800000#32) _ = _
  rw [ofBits_inf]
  rfl

/-- The sum over a row's coordinates, at row p. -/
theorem sum_cols_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_cols h p k)

/-- The sum of every entry of a 1×1×n array. -/
theorem sum_last_apply {n : ℕ} (Y : FVec Ideal ⟨3, ![1, 1, n]⟩ .f32) (h : Shape.Reduces ⟨3, ![1, 1, n]⟩ [1, 2] ⟨1, ![1]⟩)
    (hφ : FKind.Formats .f32) (hacc : (0x00000000#32 : BitVec 32) = FKind.add.neutral .f32 hφ) (u : Fin 1) :
    multiReduction .add [1, 2] ⟨1, ![1]⟩ Y 0x00000000#32 h hφ hacc (ix1 u) = ∑ j : Fin n, Y (ix3 (0 : Fin 1) (0 : Fin 1) j) := by
  refine (Ideal.multiReduction_add_total Y 0x00000000#32 h (fun b => by match b with | ⟨0, _⟩ => rfl) hφ hacc (ix1 u)).trans ?_
  exact (Equiv.sum_comp (lastEquiv n) Y).symm

/-- The sum of every entry of a 1×n×1 array. -/
theorem sum_mid_apply {n : ℕ} (Y : FVec Ideal ⟨3, ![1, n, 1]⟩ .f32) (h : Shape.Reduces ⟨3, ![1, n, 1]⟩ [1, 2] ⟨1, ![1]⟩)
    (hφ : FKind.Formats .f32) (hacc : (0x00000000#32 : BitVec 32) = FKind.add.neutral .f32 hφ) (u : Fin 1) :
    multiReduction .add [1, 2] ⟨1, ![1]⟩ Y 0x00000000#32 h hφ hacc (ix1 u) = ∑ j : Fin n, Y (ix3 (0 : Fin 1) j (0 : Fin 1)) := by
  refine (Ideal.multiReduction_add_total Y 0x00000000#32 h (fun b => by match b with | ⟨0, _⟩ => rfl) hφ hacc (ix1 u)).trans ?_
  exact (Equiv.sum_comp (midEquiv n) Y).symm

end Idealize.ShloMosaic.AxisMin

end
-- ==== Proof.ChamferOps.lean ====
/-
  The vector unit's operations of the fused kernel, read at an index on the extended reals.

  The kernel's body repeats four shapes, with different column offsets:
    * a product chunk: the rows of the first cloud against 256 rows of the second, each coordinate of the second scaled
      by the literal -2 first — entry (i, j) is Σ_d a(i,d) · (-2 · b(o + j, d));
    * a half-chunk of the row direction: 128 squared norms of the second cloud broadcast down the rows, plus 128
      columns of a product chunk — entry (i, l) is |b(o + l)|² + chunk(i, e + l);
    * a chunk of the column direction: the least over all rows i of |a(i)|² + chunk(i, j), plus |b(o + j)|², summed
      over the chunk's 256 columns;
    * the row direction's end: the least over the 128 lanes of the running row minima, plus |a(i)|², summed over i.
  Each is stated once for any offset, over the values the operands are known to hold.
-/
import proofs.«146739_g19121194402254_cont_8to1_1531_27_alg».proof.Proof.Gen.KernelIdeal.Skeleton
import proofs.«146739_g19121194402254_cont_8to1_1531_27_alg».proof.Proof.LibTransposedDot
import proofs.«146739_g19121194402254_cont_8to1_1531_27_alg».proof.Proof.LibKeepdims
import proofs.«146739_g19121194402254_cont_8to1_1531_27_alg».proof.Proof.LibAxisMin
import proofs.«146739_g19121194402254_cont_8to1_1531_27_alg».proof.Proof.ChamferConsts
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx Finset

namespace Cert.KernelIdeal.Ops

open Cert.KernelIdeal Cert.KernelIdeal.Facts₀ Idealize.ShloMosaic.AxisMin

/-- A one-entry vector cast to 1×1×1 and read at its one position. -/
theorem extract_one (x : FVec Ideal S1 .f32) :
    extractAt ![0, 0, 0] (shapeCast S1x1x1 x shapeCasts_S1_S1x1x1) inpos_S1x1x1_p0_0_0 = x (ix1 (0 : Fin 1)) := by
  unfold extractAt
  exact shapeCast_apply x shapeCasts_S1_S1x1x1 _ _ (by
    rw [Shape.rowMajor_val_one, Shape.rowMajor_val_three]; rfl)

/-! ## The four shapes of the body -/

/-- A product chunk starting at row o of the second cloud. -/
def gMat (o : ℕ) (h : S4096x3.Slices ![o, 0] S256x3) (v1 v3 : FVec Ideal S4096x3 .f32) : FVec Ideal S4096x256 .f32 :=
  matmul dot_S4096x3_S256x3_S4096x256_1_1_0_0_n_n none v1
    (mulf (broadcast S256x3 (Scalar.ofBits .f32 0xC0000000#32)) (extractStridedSlice S256x3 ![o, 0] v3 h))
    (constant S4096x256 .f32 0x00000000#32)

/-- A half-chunk of the row direction: squared norms from column o, product columns from e. -/
def gHalf (o e : ℕ) (h1 : S1x4096.Slices ![0, o] S1x128) (h2 : S4096x256.Slices ![0, e] S4096x128)
    (v10 : FVec Ideal S1x4096 .f32) (M : FVec Ideal S4096x256 .f32) : FVec Ideal S4096x128 .f32 :=
  addf (broadcastTo S4096x128 (extractStridedSlice S1x128 ![0, o] v10 h1) broadcasts_S1x128_S4096x128)
    (extractStridedSlice S4096x128 ![0, e] M h2)

/-- A chunk of the column direction, as the 1×1 block the running total adds. -/
def gCol (o : ℕ) (h : S1x4096.Slices ![0, o] S1x256) (v6 : FVec Ideal S4096x1 .f32) (v10 : FVec Ideal S1x4096 .f32)
    (M : FVec Ideal S4096x256 .f32) : FVec Ideal S1x1 .f32 :=
  broadcast S1x1 (extractAt ![0, 0, 0] (shapeCast S1x1x1 (multiReduction .add [1, 2] S1 (shapeCast S1x1x256
    (addf (shapeCast S1x256 (multiReduction .minimumf [0] S256 (addf (broadcastTo S4096x256 v6 broadcasts_S4096x1_S4096x256) M)
      0x7F800000#32 reduces_S4096x256_S256 (.inl rfl) rfl) shapeCasts_S256_S1x256) (extractStridedSlice S1x256 ![0, o] v10 h))
    shapeCasts_S1x256_S1x1x256) 0x00000000#32 reduces_S1x1x256_S1 (.inl rfl) rfl) shapeCasts_S1_S1x1x1) inpos_S1x1x1_p0_0_0)

/-- The row direction's end, as the 1×1 block the running total adds. -/
def gRows (R : FVec Ideal S4096x128 .f32) (v6 : FVec Ideal S4096x1 .f32) : FVec Ideal S1x1 .f32 :=
  broadcast S1x1 (extractAt ![0, 0, 0] (shapeCast S1x1x1 (multiReduction .add [1, 2] S1 (shapeCast S1x4096x1
    (addf (shapeCast S4096x1 (multiReduction .minimumf [1] S4096 R 0x7F800000#32 reduces_S4096x128_S4096 (.inl rfl) rfl)
      shapeCasts_S4096_S4096x1) v6)
    shapeCasts_S4096x1_S1x4096x1) 0x00000000#32 reduces_S1x4096x1_S1 (.inl rfl) rfl) shapeCasts_S1_S1x1x1) inpos_S1x1x1_p0_0_0)

/-- A product chunk at (i, j): the second cloud's rows are known through a function of the row NUMBER. -/
theorem gMat_apply (A : Fin 4096 → Fin 3 → EReal) (BN : ℕ → Fin 3 → EReal) (o : ℕ) (h : S4096x3.Slices ![o, 0] S256x3)
    (ho : o + 256 ≤ 4096) (v1 v3 : FVec Ideal S4096x3 .f32)
    (hv1 : ∀ i d, v1 (ix2 i d) = A i d) (hv3 : ∀ (k : Fin 4096) d, v3 (ix2 k d) = BN k.val d) (i : Fin 4096) (j : Fin 256) :
    gMat o h v1 v3 (ix2 i j) = ∑ d : Fin 3, A i d * (Ideal.ofBits .f32 0xC0000000#32 * BN (o + j.val) d) := by
  unfold gMat
  refine (TransposedDot.matmul_zero_apply (M := 4096) (K := 3) (N := 256) none v1 _ i j).trans ?_
  refine Finset.sum_congr rfl fun d _ => ?_
  rw [mulf_apply, broadcast_apply,
    slice2_axis0_apply o v3 h j d ⟨o + j.val, by have := j.isLt; omega⟩ rfl, hv1, hv3]
  rfl

/-- A half-chunk at (i, l): the squared norms and the product chunk's row i are known through functions of the
    column NUMBER. -/
theorem gHalf_apply (o e : ℕ) (h1 : S1x4096.Slices ![0, o] S1x128) (h2 : S4096x256.Slices ![0, e] S4096x128)
    (ho : o + 128 ≤ 4096) (he : e + 128 ≤ 256)
    (v10 : FVec Ideal S1x4096 .f32) (M : FVec Ideal S4096x256 .f32) (i : Fin 4096) (l : Fin 128) (f g : ℕ → EReal)
    (hv : ∀ k : Fin 4096, v10 (ix2 (0 : Fin 1) k) = f k.val) (hM : ∀ k : Fin 256, M (ix2 i k) = g k.val) :
    gHalf o e h1 h2 v10 M (ix2 i l) = f (o + l.val) + g (e + l.val) := by
  unfold gHalf
  rw [addf_apply, broadcastTo_1b_ab_apply,
    slice2_axis1_apply o v10 h1 (0 : Fin 1) l ⟨o + l.val, by have := l.isLt; omega⟩ rfl,
    slice2_axis1_apply e M h2 i l ⟨e + l.val, by have := l.isLt; omega⟩ rfl, hv, hM]

/-- A chunk of the column direction. -/
theorem gCol_apply (o : ℕ) (h : S1x4096.Slices ![0, o] S1x256) (ho : o + 256 ≤ 4096)
    (v6 : FVec Ideal S4096x1 .f32) (v10 : FVec Ideal S1x4096 .f32)
    (M : FVec Ideal S4096x256 .f32) (y : S1x1.Idx) (f : ℕ → EReal) (hv : ∀ k : Fin 4096, v10 (ix2 (0 : Fin 1) k) = f k.val) :
    gCol o h v6 v10 M y
      = ∑ j : Fin 256, ((univ.inf fun i : Fin 4096 => v6 (ix2 i (0 : Fin 1)) + M (ix2 i j)) + f (o + j.val)) := by
  unfold gCol
  rw [broadcast_apply, extract_one]
  refine (sum_last_apply _ reduces_S1x1x256_S1 (.inl rfl) rfl (0 : Fin 1)).trans ?_
  refine Finset.sum_congr rfl fun j _ => ?_
  rw [shapeCast_ab_1ab_apply, addf_apply, shapeCast_a_1a_apply,
    slice2_axis1_apply o v10 h (0 : Fin 1) j ⟨o + j.val, by have := j.isLt; omega⟩ rfl, hv]
  refine congrArg₂ (fun a b : EReal => a + b) ?_ rfl
  refine (min_rows_apply _ reduces_S4096x256_S256 (.inl rfl) rfl j).trans ?_
  refine congrArg (Finset.inf univ) (funext fun i => ?_)
  rw [addf_apply, Keepdims.broadcastTo_a1_ab_apply]

theorem gRows_apply (R : FVec Ideal S4096x128 .f32) (v6 : FVec Ideal S4096x1 .f32) (y : S1x1.Idx) :
    gRows R v6 y = ∑ i : Fin 4096, ((univ.inf fun l : Fin 128 => R (ix2 i l)) + v6 (ix2 i (0 : Fin 1))) := by
  unfold gRows
  rw [broadcast_apply, extract_one]
  refine (sum_mid_apply _ reduces_S1x4096x1_S1 (.inl rfl) rfl (0 : Fin 1)).trans ?_
  refine Finset.sum_congr rfl fun i _ => ?_
  rw [shapeCast_ab_1ab_apply, addf_apply, Keepdims.shapeCast_a_a1_apply]
  refine congrArg₂ (fun a b : EReal => a + b) ?_ rfl
  exact min_cols_apply _ reduces_S4096x128_S4096 (.inl rfl) rfl i

end Cert.KernelIdeal.Ops

end
-- ==== Proof.ChamferPieces.lean ====
/-
  What one grid point of the fused kernel leaves behind, as one term of the point's two input blocks.

  The body is unrolled: sixteen chunks of 256 columns, each a product chunk folded into running row minima (128 lanes
  wide) and into a running column total. Its text is cut into nine stretches; each stretch's values are functions of
  the values the stretch before left. Here the stretches are composed: rowK / sumK / matK / loK / nbK name what
  stretch K leaves (the row minima so far, the column total so far, the pending product chunk, its first 128 columns,
  and the squared norms broadcast beside them), and acc is the last stretch's store: the accumulator's previous
  contents plus this batch's total.

  Case A (the first batch) stores a zero accumulator first and then reads it back; cases B and C add to what the batch
  before left; case C (the last batch) also writes the accumulator times 2^-14 to the output block.
-/
import proofs.«146739_g19121194402254_cont_8to1_1531_27_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The running row minima after the first chunk of 256 columns: two half-chunks of 128 lanes folded. -/
def row1 (x0 x1 : Vec F S1x4096x3 .f32) : FVec F S4096x128 .f32 := k0_pay7 x0 x1
/-- The running column total after the first chunk. -/
def sum1 (x0 x1 : Vec F S1x4096x3 .f32) : FVec F S1x1 .f32 := k0_pay8 x0 x1
/-- The product chunk that is pending after the first stretch of the body (columns 256..511). -/
def mat1 (x0 x1 : Vec F S1x4096x3 .f32) : FVec F S4096x256 .f32 := k0_pay9 x0 x1
def lo1 (x0 x1 : Vec F S1x4096x3 .f32) : FVec F S4096x128 .f32 := k0_pay10 x0 x1
def nb1 (x1 : Vec F S1x4096x3 .f32) : FVec F S4096x128 .f32 := k0_pay11 x1
/-- Stretch 2 of the unrolled body: four more half-chunks folded into the row minima, two more chunks into the column
    total, and the next pending product chunk with its first half and the matching squared norms. -/
def row2 (x0 x1 : Vec F S1x4096x3 .f32) : FVec F S4096x128 .f32 :=
  k0_pay13 (k0_pay2 x0) (k0_pay3 x1) (k0_pay5 x1) (row1 x0 x1) (mat1 x0 x1) (lo1 x0 x1) (nb1 x1)
def sum2 (x0 x1 : Vec F S1x4096x3 .f32) : FVec F S1x1 .f32 :=
  k0_pay14 (k0_pay2 x0) (k0_pay3 x1) (k0_pay4 x0) (k0_pay5 x1) (sum1 x0 x1) (mat1 x0 x1)
def mat2 (x0 x1 : Vec F S1x4096x3 .f32) : FVec F S4096x256 .f32 := k0_pay15 (k0_pay2 x0) (k0_pay3 x1)
def lo2 (x0 x1 : Vec F S1x4096x3 .f32) : FVec F S4096x128 .f32 := k0_pay16 (k0_pay2 x0) (k0_pay3 x1)
def nb2 (x1 : Vec F S1x4096x3 .f32) : FVec F S4096x128 .f32 := k0_pay17 (k0_pay5 x1)
/-- Stretch 3 of the unrolled body: four more half-chunks folded into the row minima, two more chunks into the column
    total, and the next pending product chunk with its first half and the matching squared norms. -/
def row3 (x0 x1 : Vec F S1x4096x3 .f32) : FVec F S4096x128 .f32 :=
  k0_pay19 (k0_pay2 x0) (k0_pay3 x1) (k0_pay5 x1) (row2 x0 x1) (mat2 x0 x1) (lo2 x0 x1) (nb2 x1)
def sum3 (x0 x1 : Vec F S1x4096x3 .f32) : FVec F S1x1 .f32 :=
  k0_pay20 (k0_pay2 x0) (k0_pay3 x1) (k0_pay4 x0) (k0_pay5 x1) (sum2 x0 x1) (mat2 x0 x1)
def mat3 (x0 x1 : Vec F S1x4096x3 .f32) : FVec F S4096x256 .f32 := k0_pay21 (k0_pay2 x0) (k0_pay3 x1)
def lo3 (x0 x1 : Vec F S1x4096x3 .f32) : FVec F S4096x128 .f32 := k0_pay22 (k0_pay2 x0) (k0_pay3 x1)
def nb3 (x1 : Vec F S1x4096x3 .f32) : FVec F S4096x128 .f32 := k0_pay23 (k0_pay5 x1)
/-- Stretch 4 of the unrolled body: four more half-chunks folded into the row minima, two more chunks into the column
    total, and the next pending product chunk with its first half and the matching squared norms. -/
def row4 (x0 x1 : Vec F S1x4096x3 .f32) : FVec F S4096x128 .f32 :=
  k0_pay25 (k0_pay2 x0) (k0_pay3 x1) (k0_pay5 x1) (row3 x0 x1) (mat3 x0 x1) (lo3 x0 x1) (nb3 x1)
def sum4 (x0 x1 : Vec F S1x4096x3 .f32) : FVec F S1x1 .f32 :=
  k0_pay26 (k0_pay2 x0) (k0_pay3 x1) (k0_pay4 x0) (k0_pay5 x1) (sum3 x0 x1) (mat3 x0 x1)
def mat4 (x0 x1 : Vec F S1x4096x3 .f32) : FVec F S4096x256 .f32 := k0_pay27 (k0_pay2 x0) (k0_pay3 x1)
def lo4 (x0 x1 : Vec F S1x4096x3 .f32) : FVec F S4096x128 .f32 := k0_pay28 (k0_pay2 x0) (k0_pay3 x1)
def nb4 (x1 : Vec F S1x4096x3 .f32) : FVec F S4096x128 .f32 := k0_pay29 (k0_pay5 x1)
/-- Stretch 5 of the unrolled body: four more half-chunks folded into the row minima, two more chunks into the column
    total, and the next pending product chunk with its first half and the matching squared norms. -/
def row5 (x0 x1 : Vec F S1x4096x3 .f32) : FVec F S4096x128 .f32 :=
  k0_pay31 (k0_pay2 x0) (k0_pay3 x1) (k0_pay5 x1) (row4 x0 x1) (mat4 x0 x1) (lo4 x0 x1) (nb4 x1)
def sum5 (x0 x1 : Vec F S1x4096x3 .f32) : FVec F S1x1 .f32 :=
  k0_pay32 (k0_pay2 x0) (k0_pay3 x1) (k0_pay4 x0) (k0_pay5 x1) (sum4 x0 x1) (mat4 x0 x1)
def mat5 (x0 x1 : Vec F S1x4096x3 .f32) : FVec F S4096x256 .f32 := k0_pay33 (k0_pay2 x0) (k0_pay3 x1)
def lo5 (x0 x1 : Vec F S1x4096x3 .f32) : FVec F S4096x128 .f32 := k0_pay34 (k0_pay2 x0) (k0_pay3 x1)
def nb5 (x1 : Vec F S1x4096x3 .f32) : FVec F S4096x128 .f32 := k0_pay35 (k0_pay5 x1)
/-- Stretch 6 of the unrolled body: four more half-chunks folded into the row minima, two more chunks into the column
    total, and the next pending product chunk with its first half and the matching squared norms. -/
def row6 (x0 x1 : Vec F S1x4096x3 .f32) : FVec F S4096x128 .f32 :=
  k0_pay37 (k0_pay2 x0) (k0_pay3 x1) (k0_pay5 x1) (row5 x0 x1) (mat5 x0 x1) (lo5 x0 x1) (nb5 x1)
def sum6 (x0 x1 : Vec F S1x4096x3 .f32) : FVec F S1x1 .f32 :=
  k0_pay38 (k0_pay2 x0) (k0_pay3 x1) (k0_pay4 x0) (k0_pay5 x1) (sum5 x0 x1) (mat5 x0 x1)
def mat6 (x0 x1 : Vec F S1x4096x3 .f32) : FVec F S4096x256 .f32 := k0_pay39 (k0_pay2 x0) (k0_pay3 x1)
def lo6 (x0 x1 : Vec F S1x4096x3 .f32) : FVec F S4096x128 .f32 := k0_pay40 (k0_pay2 x0) (k0_pay3 x1)
def nb6 (x1 : Vec F S1x4096x3 .f32) : FVec F S4096x128 .f32 := k0_pay41 (k0_pay5 x1)
/-- Stretch 7 of the unrolled body: four more half-chunks folded into the row minima, two more chunks into the column
    total, and the next pending product chunk with its first half and the matching squared norms. -/
def row7 (x0 x1 : Vec F S1x4096x3 .f32) : FVec F S4096x128 .f32 :=
  k0_pay43 (k0_pay2 x0) (k0_pay3 x1) (k0_pay5 x1) (row6 x0 x1) (mat6 x0 x1) (lo6 x0 x1) (nb6 x1)
def sum7 (x0 x1 : Vec F S1x4096x3 .f32) : FVec F S1x1 .f32 :=
  k0_pay44 (k0_pay2 x0) (k0_pay3 x1) (k0_pay4 x0) (k0_pay5 x1) (sum6 x0 x1) (mat6 x0 x1)
def mat7 (x0 x1 : Vec F S1x4096x3 .f32) : FVec F S4096x256 .f32 := k0_pay45 (k0_pay2 x0) (k0_pay3 x1)
def lo7 (x0 x1 : Vec F S1x4096x3 .f32) : FVec F S4096x128 .f32 := k0_pay46 (k0_pay2 x0) (k0_pay3 x1)
def nb7 (x1 : Vec F S1x4096x3 .f32) : FVec F S4096x128 .f32 := k0_pay47 (k0_pay5 x1)
/-- Stretch 8 of the unrolled body: four more half-chunks folded into the row minima, two more chunks into the column
    total, and the next pending product chunk with its first half and the matching squared norms. -/
def row8 (x0 x1 : Vec F S1x4096x3 .f32) : FVec F S4096x128 .f32 :=
  k0_pay49 (k0_pay2 x0) (k0_pay3 x1) (k0_pay5 x1) (row7 x0 x1) (mat7 x0 x1) (lo7 x0 x1) (nb7 x1)
def sum8 (x0 x1 : Vec F S1x4096x3 .f32) : FVec F S1x1 .f32 :=
  k0_pay50 (k0_pay2 x0) (k0_pay3 x1) (k0_pay4 x0) (k0_pay5 x1) (sum7 x0 x1) (mat7 x0 x1)
def mat8 (x0 x1 : Vec F S1x4096x3 .f32) : FVec F S4096x256 .f32 := k0_pay51 (k0_pay2 x0) (k0_pay3 x1)
def lo8 (x0 x1 : Vec F S1x4096x3 .f32) : FVec F S4096x128 .f32 := k0_pay52 (k0_pay2 x0) (k0_pay3 x1)
def nb8 (x1 : Vec F S1x4096x3 .f32) : FVec F S4096x128 .f32 := k0_pay53 (k0_pay5 x1)

/-- The accumulator after a point whose input blocks are x0, x1, from its previous contents xs. -/
def acc (x0 x1 : Vec F S1x4096x3 .f32) (xs : Vec F S1x1 .f32) : FVec F S1x1 .f32 :=
  k0_pay55 (k0_pay4 x0) (k0_pay5 x1) (row8 x0 x1) (sum8 x0 x1) (mat8 x0 x1) (lo8 x0 x1) (nb8 x1) xs

/-- Cases B (middle batches): the carried accumulator ends at acc of its previous contents. -/
theorem scratch_B (c : Dev nD) (i : grid0.Coords) (a1 : Memref sig .tc .vmem S1x4096x3 .f32) (h1 : a1.IsWhole)
    (a2 : Memref sig .tc .vmem S1x4096x3 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S1x4096x3 .f32) (xs : Vec F S1x1 .f32) :
    sout0_B_0 c i a1 h1 a2 h2 a3 h3 a4 h4 hc0 hc1 x0 x1 xs = acc x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S1x4096x3) hz3,
    View.ld_unit_zero (S := S1x1) hz]
  rfl

/-- Case C (the last batch): the same for the carried accumulator. -/
theorem scratch_C (c : Dev nD) (i : grid0.Coords) (a1 : Memref sig .tc .vmem S1x4096x3 .f32) (h1 : a1.IsWhole)
    (a2 : Memref sig .tc .vmem S1x4096x3 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S1x4096x3 .f32) (xs : Vec F S1x1 .f32) :
    sout0_C_0 c i a1 h1 a2 h2 a3 h3 a4 h4 hc0 hc1 x0 x1 xs = acc x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S1x4096x3) hz3,
    View.ld_unit_zero (S := S1x1) hz]
  rfl

/-- Case C's output block: the accumulator just stored, read back, times the literal 2^-14. -/
theorem out_C (c : Dev nD) (i : grid0.Coords) (a1 : Memref sig .tc .vmem S1x4096x3 .f32) (h1 : a1.IsWhole)
    (a2 : Memref sig .tc .vmem S1x4096x3 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S1x4096x3 .f32) (xs : Vec F S1x1 .f32) :
    out0_C_2 c i a1 h1 a2 h2 a3 h3 a4 h4 hc0 hc1 x0 x1 xs = k0_pay1 (acc x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S1x4096x3) hz3,
    View.ld_unit_zero (S := S1x1) hz]
  rfl

/-- Case A (the first batch): the accumulator is zeroed, read back, and ends at acc of the zero block. -/
theorem scratch_A (c : Dev nD) (i : grid0.Coords) (a1 : Memref sig .tc .vmem S1x4096x3 .f32) (h1 : a1.IsWhole)
    (a2 : Memref sig .tc .vmem S1x4096x3 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S1x4096x3 .f32) :
    sout0_A_0 c i a1 h1 a2 h2 a3 h3 a4 h4 hc0 hc1 x0 x1 = acc x0 x1 (k0_pay54 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1x4096x3) hz3]
  rfl

end Cert.KernelIdeal.Pieces

end
-- ==== Proof.ChamferKernelValue.lean ====
/-
  One grid point of the fused kernel, as a number: the accumulator's previous entry plus the batch's total
  Σ_j (min_i (|a_i|² + p_ij) + |b_j|²) + Σ_i (min_j (|b_j|² + p_ij) + |a_i|²), where p_ij = Σ_d a_id · (-2 · b_jd).

  The body walks the 4096 columns in sixteen chunks of 256, two half-chunks of 128 lanes each. After q half-chunks the
  running row minima hold, at (i, l), the least of |b_n|² + p_in over n = 128·s + l, s < q; after c chunks the running
  column total holds the column terms of the first 256·c columns. Columns are named by their NUMBER (a natural
  number), so that the offsets the body spells (384, 512, …) add up by plain arithmetic. At the end the 32 half-chunks
  cover every column exactly once: the least over l and s of a term at 128·s + l is the least over all columns
  (every n below 4096 is 128·(n / 128) + n % 128), and the sixteen chunk sums are the sum over all columns.
-/
import proofs.«146739_g19121194402254_cont_8to1_1531_27_alg».proof.Proof.ChamferOps
import proofs.«146739_g19121194402254_cont_8to1_1531_27_alg».proof.Proof.ChamferPieces
import proofs.«146739_g19121194402254_cont_8to1_1531_27_alg».proof.Proof.ChamferSpec

noncomputable section

open Idealize.ShloMosaic Idealize.ShloMosaic.ValueIdx Idealize.ShloMosaic.TcCoe Finset

namespace Cert.KernelIdeal.KVal

open Cert.KernelIdeal Cert.KernelIdeal.Gen Cert.KernelIdeal.Ops Cert.KernelIdeal.Pieces Cert.Chamfer Idealize.ShloMosaic.AxisMin

/-- The literal -2 the kernel scales the second cloud by, as the extended real its pattern denotes. -/
abbrev c2 : EReal := Ideal.ofBits .f32 0xC0000000#32

/-- A 1×4096×3 block as a cloud of 4096 points. -/
def cloud (x : Vec Ideal S1x4096x3 .f32) : Fin 4096 → Fin 3 → EReal := fun i d => x (ix3 (0 : Fin 1) i d)

/-! ## The quantities, with columns named by number -/

section sem
variable (A B : Fin 4096 → Fin 3 → EReal)

/-- Point n of a cloud, n a natural number (+∞ beyond the cloud). -/
def ext (n : ℕ) (d : Fin 3) : EReal := if h : n < 4096 then B ⟨n, h⟩ d else ⊤

theorem ext_val (j : Fin 4096) (d : Fin 3) : ext B j.val d = B j d := by
  unfold ext; rw [dif_pos j.isLt]

/-- |b_n|². -/
def sqN (n : ℕ) : EReal := ∑ d : Fin 3, ext B n d * ext B n d
/-- p_in. -/
def ipN (i : Fin 4096) (n : ℕ) : EReal := ∑ d : Fin 3, A i d * (c2 * ext B n d)

theorem sqN_val (j : Fin 4096) : sqN B j.val = sqnorm B j := by
  unfold sqN sqnorm; simp only [ext_val]
theorem ipN_val (i j : Fin 4096) : ipN A B i j.val = ip c2 A B i j := by
  unfold ipN ip; simp only [ext_val]

/-- The row direction's term at column n. -/
def TN (i : Fin 4096) (n : ℕ) : EReal := sqN B n + ipN A B i n

/-- The running row minima after q half-chunks, at row i and lane l. -/
def RN (q : ℕ) (i : Fin 4096) (l : ℕ) : EReal := (range q).inf fun s => TN A B i (128 * s + l)

theorem RN_succ (q : ℕ) (i : Fin 4096) (l : ℕ) :
    RN A B (q + 1) i l = min (RN A B q i l) (TN A B i (128 * q + l)) := by
  unfold RN
  rw [Finset.range_add_one, Finset.inf_insert, inf_comm]

/-- The column direction's minimum at column n. -/
def colN (n : ℕ) : EReal := univ.inf fun i : Fin 4096 => sqnorm A i + ipN A B i n

/-- The column terms of the 256 columns from o. -/
def CsO (o : ℕ) : EReal := ∑ j : Fin 256, (colN A B (o + j.val) + sqN B (o + j.val))

/-- The running column total after c chunks. -/
def SN : ℕ → EReal
  | 0 => 0
  | c + 1 => SN c + CsO A B (256 * c)

theorem SN_succ (c : ℕ) : SN A B (c + 1) = SN A B c + CsO A B (256 * c) := rfl

theorem TN_val (i j : Fin 4096) : TN A B i j.val = sqnorm B j + ip c2 A B i j := by
  unfold TN; rw [sqN_val, ipN_val]

/-- The running column total after c chunks is the sum over the first 256·c columns. -/
theorem SN_eq (c : ℕ) : SN A B c = ∑ n ∈ range (256 * c), (colN A B n + sqN B n) := by
  induction c with
  | zero => rfl
  | succ c ih =>
    rw [SN_succ, ih, Nat.mul_succ, Finset.sum_range_add]
    refine congrArg₂ (fun a b : EReal => a + b) rfl ?_
    unfold CsO
    exact Fin.sum_univ_eq_sum_range (fun k => colN A B (256 * c + k) + sqN B (256 * c + k)) 256

/-- After sixteen chunks: the column direction's sum over all columns. -/
theorem SN_all : SN A B 16 = ∑ j : Fin 4096, (colmin c2 A B j + sqnorm B j) := by
  rw [SN_eq, show 256 * 16 = 4096 from rfl, Finset.sum_range]
  refine Finset.sum_congr rfl fun j _ => ?_
  rw [sqN_val]
  refine congrArg₂ (fun a b : EReal => a + b) ?_ rfl
  unfold colN colmin
  exact congrArg (Finset.inf univ) (funext fun i => by rw [ipN_val])

/-- After thirty-two half-chunks: the least over the lanes of the running row minima is the least over all columns. -/
theorem rows_all (i : Fin 4096) : (univ.inf fun l : Fin 128 => RN A B 32 i l.val) = rowmin c2 A B i := by
  unfold rowmin
  apply le_antisymm
  · refine Finset.le_inf fun j _ => ?_
    have hl : j.val % 128 < 128 := Nat.mod_lt _ (by norm_num)
    have hs : j.val / 128 < 32 := by have := j.isLt; omega
    have h1 : (univ.inf fun l : Fin 128 => RN A B 32 i l.val) ≤ RN A B 32 i (j.val % 128) :=
      Finset.inf_le (s := univ) (f := fun l : Fin 128 => RN A B 32 i l.val) (b := (⟨j.val % 128, hl⟩ : Fin 128))
        (Finset.mem_univ _)
    have h2 : RN A B 32 i (j.val % 128) ≤ TN A B i (128 * (j.val / 128) + j.val % 128) :=
      Finset.inf_le (s := range 32) (f := fun s => TN A B i (128 * s + j.val % 128)) (b := j.val / 128)
        (Finset.mem_range.mpr hs)
    have h3 : TN A B i (128 * (j.val / 128) + j.val % 128) = sqnorm B j + ip c2 A B i j := by
      rw [Nat.div_add_mod]; exact TN_val A B i j
    exact (h1.trans h2).trans (le_of_eq h3)
  · refine Finset.le_inf fun l _ => ?_
    unfold RN
    refine Finset.le_inf fun s hs => ?_
    have hs' := Finset.mem_range.mp hs
    have hn : 128 * s + l.val < 4096 := by have := l.isLt; omega
    have e : TN A B i (128 * s + l.val)
        = sqnorm B ⟨128 * s + l.val, hn⟩ + ip c2 A B i ⟨128 * s + l.val, hn⟩ := TN_val A B i ⟨128 * s + l.val, hn⟩
    rw [e]
    exact Finset.inf_le (s := univ) (f := fun j => sqnorm B j + ip c2 A B i j) (Finset.mem_univ _)

end sem

/-! ## The body's values at an index -/

section body
variable (x0 x1 : Vec Ideal S1x4096x3 .f32)

theorem pay2_val (i : Fin 4096) (d : Fin 3) : k0_pay2 x0 (ix2 i d) = cloud x0 i d :=
  shapeCast_1ab_ab_apply x0 shapeCasts_S1x4096x3_S4096x3 i d

theorem pay3_val (k : Fin 4096) (d : Fin 3) : k0_pay3 x1 (ix2 k d) = ext (cloud x1) k.val d :=
  (shapeCast_1ab_ab_apply x1 shapeCasts_S1x4096x3_S4096x3 k d).trans (ext_val (cloud x1) k d).symm

theorem pay4_val (i : Fin 4096) (u : Fin 1) : k0_pay4 x0 (ix2 i u) = sqnorm (cloud x0) i := by
  show shapeCast S4096x1 (multiReduction .add [1] S4096 (mulf (k0_pay2 x0) (k0_pay2 x0)) 0x00000000#32
    reduces_S4096x3_S4096 (.inl rfl) rfl) shapeCasts_S4096_S4096x1 (ix2 i u) = _
  rw [Keepdims.shapeCast_a_a1_apply]
  refine (sum_cols_apply _ reduces_S4096x3_S4096 (.inl rfl) rfl i).trans ?_
  unfold sqnorm
  exact Finset.sum_congr rfl fun d _ => by rw [mulf_apply, pay2_val]

theorem pay5_val (k : Fin 4096) : k0_pay5 x1 (ix2 (0 : Fin 1) k) = sqN (cloud x1) k.val := by
  show transpose S1x4096 [1, 0] (shapeCast S4096x1 (multiReduction .add [1] S4096 (mulf (k0_pay3 x1) (k0_pay3 x1)) 0x00000000#32
    reduces_S4096x3_S4096 (.inl rfl) rfl) shapeCasts_S4096_S4096x1) transposes_S4096x1_p1_0_S1x4096 (ix2 (0 : Fin 1) k) = _
  rw [transpose_ix2_apply, Keepdims.shapeCast_a_a1_apply]
  refine (sum_cols_apply _ reduces_S4096x3_S4096 (.inl rfl) rfl k).trans ?_
  unfold sqN
  exact Finset.sum_congr rfl fun d _ => by rw [mulf_apply, pay3_val]

/-- A product chunk from row o of the second cloud, at (i, k): p at column o + k. -/
theorem mat_val (o : ℕ) (h : S4096x3.Slices ![o, 0] S256x3) (ho : o + 256 ≤ 4096) (i : Fin 4096) (k : Fin 256) :
    gMat o h (k0_pay2 x0) (k0_pay3 x1) (ix2 i k) = ipN (cloud x0) (cloud x1) i (o + k.val) :=
  gMat_apply (cloud x0) (ext (cloud x1)) o h ho _ _ (pay2_val x0) (pay3_val x1) i k

/-- The first 128 columns of a product chunk. -/
theorem lo_val (o : ℕ) (h : S4096x3.Slices ![o, 0] S256x3) (ho : o + 256 ≤ 4096) (i : Fin 4096) (l : Fin 128) :
    extractStridedSlice S4096x128 ![0, 0] (gMat o h (k0_pay2 x0) (k0_pay3 x1)) slices_S4096x256_o0_0_S4096x128 (ix2 i l)
      = ipN (cloud x0) (cloud x1) i (o + l.val) :=
  (slice2_axis1_apply 0 _ slices_S4096x256_o0_0_S4096x128 i l ⟨l.val, by have := l.isLt; omega⟩ (Nat.zero_add _).symm).trans
    (mat_val x0 x1 o h ho i ⟨l.val, by have := l.isLt; omega⟩)

/-- 128 squared norms of the second cloud from column o, broadcast down the rows. -/
theorem nb_val (o : ℕ) (h : S1x4096.Slices ![0, o] S1x128) (ho : o + 128 ≤ 4096) (i : Fin 4096) (l : Fin 128) :
    broadcastTo S4096x128 (extractStridedSlice S1x128 ![0, o] (k0_pay5 x1) h) broadcasts_S1x128_S4096x128 (ix2 i l)
      = sqN (cloud x1) (o + l.val) := by
  rw [broadcastTo_1b_ab_apply, slice2_axis1_apply o _ h (0 : Fin 1) l ⟨o + l.val, by have := l.isLt; omega⟩ rfl, pay5_val]

/-- A half-chunk at (i, l) is the row direction's term at its column, whose number the caller names. -/
theorem half_val (o e O : ℕ) (h1 : S1x4096.Slices ![0, o] S1x128) (h2 : S4096x256.Slices ![0, e] S4096x128)
    (ho : o + 128 ≤ 4096) (he : e + 128 ≤ 256) (M : FVec Ideal S4096x256 .f32)
    (hM : ∀ (i : Fin 4096) (k : Fin 256), M (ix2 i k) = ipN (cloud x0) (cloud x1) i (O + k.val))
    (i : Fin 4096) (l : Fin 128) (n : ℕ) (hn1 : o + l.val = n) (hn2 : O + (e + l.val) = n) :
    gHalf o e h1 h2 (k0_pay5 x1) M (ix2 i l) = TN (cloud x0) (cloud x1) i n := by
  rw [gHalf_apply o e h1 h2 ho he _ M i l (sqN (cloud x1)) (fun k => ipN (cloud x0) (cloud x1) i (O + k)) (pay5_val x1) (hM i),
    hn1, hn2]
  rfl

/-- A chunk of the column direction from column o. -/
theorem col_val (o : ℕ) (h : S1x4096.Slices ![0, o] S1x256) (ho : o + 256 ≤ 4096) (M : FVec Ideal S4096x256 .f32)
    (hM : ∀ (i : Fin 4096) (k : Fin 256), M (ix2 i k) = ipN (cloud x0) (cloud x1) i (o + k.val)) (y : S1x1.Idx) :
    gCol o h (k0_pay4 x0) (k0_pay5 x1) M y = CsO (cloud x0) (cloud x1) o := by
  rw [gCol_apply o h ho _ _ M y (sqN (cloud x1)) (pay5_val x1)]
  unfold CsO colN
  refine Finset.sum_congr rfl fun j _ => congrArg₂ (fun a b : EReal => a + b) (congrArg (Finset.inf univ) (funext fun i => ?_)) rfl
  rw [pay4_val, hM]

/-! ### Stretch 1: half-chunks 0 and 1 of the rows, chunk 0 of the columns; pending chunk 1 -/

theorem row1_val (i : Fin 4096) (l : Fin 128) : row1 x0 x1 (ix2 i l) = RN (cloud x0) (cloud x1) 2 i l.val := by
  show minimumf
      (gHalf 0 0 slices_S1x4096_o0_0_S1x128 slices_S4096x256_o0_0_S4096x128 (k0_pay5 x1)
        (gMat 0 slices_S4096x3_o0_0_S256x3 (k0_pay2 x0) (k0_pay3 x1)))
      (gHalf 128 128 slices_S1x4096_o0_128_S1x128 slices_S4096x256_o0_128_S4096x128 (k0_pay5 x1)
        (gMat 0 slices_S4096x3_o0_0_S256x3 (k0_pay2 x0) (k0_pay3 x1))) (ix2 i l) = _
  rw [minimumf_apply,
    half_val x0 x1 0 0 0 _ _ (by norm_num) (by norm_num) _ (mat_val x0 x1 0 _ (by norm_num)) i l (128 * 0 + l.val) (by omega) (by omega),
    half_val x0 x1 128 128 0 _ _ (by norm_num) (by norm_num) _ (mat_val x0 x1 0 _ (by norm_num)) i l (128 * 1 + l.val) (by omega) (by omega),
    RN_succ _ _ 1, RN_succ _ _ 0]
  unfold RN
  rw [Finset.range_zero, Finset.inf_empty, min_top_left]

theorem sum1_val (y : S1x1.Idx) : sum1 x0 x1 y = SN (cloud x0) (cloud x1) 1 := by
  show addf (broadcast S1x1 (Scalar.ofBits .f32 0x00000000#32))
      (gCol 0 slices_S1x4096_o0_0_S1x256 (k0_pay4 x0) (k0_pay5 x1) (gMat 0 slices_S4096x3_o0_0_S256x3 (k0_pay2 x0) (k0_pay3 x1))) y = _
  rw [addf_apply, broadcast_apply, col_val x0 x1 0 _ (by norm_num) _ (mat_val x0 x1 0 _ (by norm_num)), SN_succ _ _ 0]
  show Ideal.ofBits .f32 0x00000000#32 + _ = _
  rw [Ideal.ofBits_zero_f32]
  rfl

theorem mat1_val (i : Fin 4096) (k : Fin 256) : mat1 x0 x1 (ix2 i k) = ipN (cloud x0) (cloud x1) i (256 + k.val) :=
  mat_val x0 x1 256 slices_S4096x3_o256_0_S256x3 (by norm_num) i k

theorem lo1_val (i : Fin 4096) (l : Fin 128) : lo1 x0 x1 (ix2 i l) = ipN (cloud x0) (cloud x1) i (256 + l.val) :=
  lo_val x0 x1 256 slices_S4096x3_o256_0_S256x3 (by norm_num) i l

theorem nb1_val (i : Fin 4096) (l : Fin 128) : nb1 x1 (ix2 i l) = sqN (cloud x1) (256 + l.val) :=
  nb_val x1 256 slices_S1x4096_o0_256_S1x128 (by norm_num) i l

/-! ### Stretch 2: half-chunks 2..5 of the rows, chunks 1 and 2 of the columns; pending chunk 3 -/

theorem row2_val (i : Fin 4096) (l : Fin 128) :
    row2 x0 x1 (ix2 i l) = RN (cloud x0) (cloud x1) 6 i l.val := by
  show minimumf (minimumf (minimumf (minimumf (row1 x0 x1) (addf (nb1 x1) (lo1 x0 x1)))
      (gHalf 384 128 slices_S1x4096_o0_384_S1x128 slices_S4096x256_o0_128_S4096x128 (k0_pay5 x1) (mat1 x0 x1)))
      (gHalf 512 0 slices_S1x4096_o0_512_S1x128 slices_S4096x256_o0_0_S4096x128 (k0_pay5 x1)
        (gMat 512 slices_S4096x3_o512_0_S256x3 (k0_pay2 x0) (k0_pay3 x1))))
      (gHalf 640 128 slices_S1x4096_o0_640_S1x128 slices_S4096x256_o0_128_S4096x128 (k0_pay5 x1)
        (gMat 512 slices_S4096x3_o512_0_S256x3 (k0_pay2 x0) (k0_pay3 x1))) (ix2 i l) = _
  rw [minimumf_apply, minimumf_apply, minimumf_apply, minimumf_apply, addf_apply, row1_val, nb1_val, lo1_val,
    half_val x0 x1 384 128 256 _ _ (by norm_num) (by norm_num) _ (mat1_val x0 x1) i l (128 * 3 + l.val) (by omega) (by omega),
    half_val x0 x1 512 0 512 _ _ (by norm_num) (by norm_num) _ (mat_val x0 x1 512 _ (by norm_num)) i l (128 * 4 + l.val) (by omega) (by omega),
    half_val x0 x1 640 128 512 _ _ (by norm_num) (by norm_num) _ (mat_val x0 x1 512 _ (by norm_num)) i l (128 * 5 + l.val) (by omega) (by omega),
    RN_succ _ _ 5, RN_succ _ _ 4, RN_succ _ _ 3, RN_succ _ _ 2]
  rfl

theorem sum2_val (y : S1x1.Idx) : sum2 x0 x1 y = SN (cloud x0) (cloud x1) 3 := by
  show addf (addf (sum1 x0 x1) (gCol 256 slices_S1x4096_o0_256_S1x256 (k0_pay4 x0) (k0_pay5 x1) (mat1 x0 x1)))
      (gCol 512 slices_S1x4096_o0_512_S1x256 (k0_pay4 x0) (k0_pay5 x1)
        (gMat 512 slices_S4096x3_o512_0_S256x3 (k0_pay2 x0) (k0_pay3 x1))) y = _
  rw [addf_apply, addf_apply, sum1_val, col_val x0 x1 256 _ (by norm_num) _ (mat1_val x0 x1),
    col_val x0 x1 512 _ (by norm_num) _ (mat_val x0 x1 512 _ (by norm_num)), SN_succ _ _ 2, SN_succ _ _ 1]

theorem mat2_val (i : Fin 4096) (k : Fin 256) :
    mat2 x0 x1 (ix2 i k) = ipN (cloud x0) (cloud x1) i (768 + k.val) :=
  mat_val x0 x1 768 slices_S4096x3_o768_0_S256x3 (by norm_num) i k

theorem lo2_val (i : Fin 4096) (l : Fin 128) :
    lo2 x0 x1 (ix2 i l) = ipN (cloud x0) (cloud x1) i (768 + l.val) :=
  lo_val x0 x1 768 slices_S4096x3_o768_0_S256x3 (by norm_num) i l

theorem nb2_val (i : Fin 4096) (l : Fin 128) :
    nb2 x1 (ix2 i l) = sqN (cloud x1) (768 + l.val) :=
  nb_val x1 768 slices_S1x4096_o0_768_S1x128 (by norm_num) i l

/-! ### Stretch 3: half-chunks 6..9 of the rows, chunks 3 and 4 of the columns; pending chunk 5 -/

theorem row3_val (i : Fin 4096) (l : Fin 128) :
    row3 x0 x1 (ix2 i l) = RN (cloud x0) (cloud x1) 10 i l.val := by
  show minimumf (minimumf (minimumf (minimumf (row2 x0 x1) (addf (nb2 x1) (lo2 x0 x1)))
      (gHalf 896 128 slices_S1x4096_o0_896_S1x128 slices_S4096x256_o0_128_S4096x128 (k0_pay5 x1) (mat2 x0 x1)))
      (gHalf 1024 0 slices_S1x4096_o0_1024_S1x128 slices_S4096x256_o0_0_S4096x128 (k0_pay5 x1)
        (gMat 1024 slices_S4096x3_o1024_0_S256x3 (k0_pay2 x0) (k0_pay3 x1))))
      (gHalf 1152 128 slices_S1x4096_o0_1152_S1x128 slices_S4096x256_o0_128_S4096x128 (k0_pay5 x1)
        (gMat 1024 slices_S4096x3_o1024_0_S256x3 (k0_pay2 x0) (k0_pay3 x1))) (ix2 i l) = _
  rw [minimumf_apply, minimumf_apply, minimumf_apply, minimumf_apply, addf_apply, row2_val, nb2_val, lo2_val,
    half_val x0 x1 896 128 768 _ _ (by norm_num) (by norm_num) _ (mat2_val x0 x1) i l (128 * 7 + l.val) (by omega) (by omega),
    half_val x0 x1 1024 0 1024 _ _ (by norm_num) (by norm_num) _ (mat_val x0 x1 1024 _ (by norm_num)) i l (128 * 8 + l.val) (by omega) (by omega),
    half_val x0 x1 1152 128 1024 _ _ (by norm_num) (by norm_num) _ (mat_val x0 x1 1024 _ (by norm_num)) i l (128 * 9 + l.val) (by omega) (by omega),
    RN_succ _ _ 9, RN_succ _ _ 8, RN_succ _ _ 7, RN_succ _ _ 6]
  rfl

theorem sum3_val (y : S1x1.Idx) : sum3 x0 x1 y = SN (cloud x0) (cloud x1) 5 := by
  show addf (addf (sum2 x0 x1) (gCol 768 slices_S1x4096_o0_768_S1x256 (k0_pay4 x0) (k0_pay5 x1) (mat2 x0 x1)))
      (gCol 1024 slices_S1x4096_o0_1024_S1x256 (k0_pay4 x0) (k0_pay5 x1)
        (gMat 1024 slices_S4096x3_o1024_0_S256x3 (k0_pay2 x0) (k0_pay3 x1))) y = _
  rw [addf_apply, addf_apply, sum2_val, col_val x0 x1 768 _ (by norm_num) _ (mat2_val x0 x1),
    col_val x0 x1 1024 _ (by norm_num) _ (mat_val x0 x1 1024 _ (by norm_num)), SN_succ _ _ 4, SN_succ _ _ 3]

theorem mat3_val (i : Fin 4096) (k : Fin 256) :
    mat3 x0 x1 (ix2 i k) = ipN (cloud x0) (cloud x1) i (1280 + k.val) :=
  mat_val x0 x1 1280 slices_S4096x3_o1280_0_S256x3 (by norm_num) i k

theorem lo3_val (i : Fin 4096) (l : Fin 128) :
    lo3 x0 x1 (ix2 i l) = ipN (cloud x0) (cloud x1) i (1280 + l.val) :=
  lo_val x0 x1 1280 slices_S4096x3_o1280_0_S256x3 (by norm_num) i l

theorem nb3_val (i : Fin 4096) (l : Fin 128) :
    nb3 x1 (ix2 i l) = sqN (cloud x1) (1280 + l.val) :=
  nb_val x1 1280 slices_S1x4096_o0_1280_S1x128 (by norm_num) i l

/-! ### Stretch 4: half-chunks 10..13 of the rows, chunks 5 and 6 of the columns; pending chunk 7 -/

theorem row4_val (i : Fin 4096) (l : Fin 128) :
    row4 x0 x1 (ix2 i l) = RN (cloud x0) (cloud x1) 14 i l.val := by
  show minimumf (minimumf (minimumf (minimumf (row3 x0 x1) (addf (nb3 x1) (lo3 x0 x1)))
      (gHalf 1408 128 slices_S1x4096_o0_1408_S1x128 slices_S4096x256_o0_128_S4096x128 (k0_pay5 x1) (mat3 x0 x1)))
      (gHalf 1536 0 slices_S1x4096_o0_1536_S1x128 slices_S4096x256_o0_0_S4096x128 (k0_pay5 x1)
        (gMat 1536 slices_S4096x3_o1536_0_S256x3 (k0_pay2 x0) (k0_pay3 x1))))
      (gHalf 1664 128 slices_S1x4096_o0_1664_S1x128 slices_S4096x256_o0_128_S4096x128 (k0_pay5 x1)
        (gMat 1536 slices_S4096x3_o1536_0_S256x3 (k0_pay2 x0) (k0_pay3 x1))) (ix2 i l) = _
  rw [minimumf_apply, minimumf_apply, minimumf_apply, minimumf_apply, addf_apply, row3_val, nb3_val, lo3_val,
    half_val x0 x1 1408 128 1280 _ _ (by norm_num) (by norm_num) _ (mat3_val x0 x1) i l (128 * 11 + l.val) (by omega) (by omega),
    half_val x0 x1 1536 0 1536 _ _ (by norm_num) (by norm_num) _ (mat_val x0 x1 1536 _ (by norm_num)) i l (128 * 12 + l.val) (by omega) (by omega),
    half_val x0 x1 1664 128 1536 _ _ (by norm_num) (by norm_num) _ (mat_val x0 x1 1536 _ (by norm_num)) i l (128 * 13 + l.val) (by omega) (by omega),
    RN_succ _ _ 13, RN_succ _ _ 12, RN_succ _ _ 11, RN_succ _ _ 10]
  rfl

theorem sum4_val (y : S1x1.Idx) : sum4 x0 x1 y = SN (cloud x0) (cloud x1) 7 := by
  show addf (addf (sum3 x0 x1) (gCol 1280 slices_S1x4096_o0_1280_S1x256 (k0_pay4 x0) (k0_pay5 x1) (mat3 x0 x1)))
      (gCol 1536 slices_S1x4096_o0_1536_S1x256 (k0_pay4 x0) (k0_pay5 x1)
        (gMat 1536 slices_S4096x3_o1536_0_S256x3 (k0_pay2 x0) (k0_pay3 x1))) y = _
  rw [addf_apply, addf_apply, sum3_val, col_val x0 x1 1280 _ (by norm_num) _ (mat3_val x0 x1),
    col_val x0 x1 1536 _ (by norm_num) _ (mat_val x0 x1 1536 _ (by norm_num)), SN_succ _ _ 6, SN_succ _ _ 5]

theorem mat4_val (i : Fin 4096) (k : Fin 256) :
    mat4 x0 x1 (ix2 i k) = ipN (cloud x0) (cloud x1) i (1792 + k.val) :=
  mat_val x0 x1 1792 slices_S4096x3_o1792_0_S256x3 (by norm_num) i k

theorem lo4_val (i : Fin 4096) (l : Fin 128) :
    lo4 x0 x1 (ix2 i l) = ipN (cloud x0) (cloud x1) i (1792 + l.val) :=
  lo_val x0 x1 1792 slices_S4096x3_o1792_0_S256x3 (by norm_num) i l

theorem nb4_val (i : Fin 4096) (l : Fin 128) :
    nb4 x1 (ix2 i l) = sqN (cloud x1) (1792 + l.val) :=
  nb_val x1 1792 slices_S1x4096_o0_1792_S1x128 (by norm_num) i l

/-! ### Stretch 5: half-chunks 14..17 of the rows, chunks 7 and 8 of the columns; pending chunk 9 -/

theorem row5_val (i : Fin 4096) (l : Fin 128) :
    row5 x0 x1 (ix2 i l) = RN (cloud x0) (cloud x1) 18 i l.val := by
  show minimumf (minimumf (minimumf (minimumf (row4 x0 x1) (addf (nb4 x1) (lo4 x0 x1)))
      (gHalf 1920 128 slices_S1x4096_o0_1920_S1x128 slices_S4096x256_o0_128_S4096x128 (k0_pay5 x1) (mat4 x0 x1)))
      (gHalf 2048 0 slices_S1x4096_o0_2048_S1x128 slices_S4096x256_o0_0_S4096x128 (k0_pay5 x1)
        (gMat 2048 slices_S4096x3_o2048_0_S256x3 (k0_pay2 x0) (k0_pay3 x1))))
      (gHalf 2176 128 slices_S1x4096_o0_2176_S1x128 slices_S4096x256_o0_128_S4096x128 (k0_pay5 x1)
        (gMat 2048 slices_S4096x3_o2048_0_S256x3 (k0_pay2 x0) (k0_pay3 x1))) (ix2 i l) = _
  rw [minimumf_apply, minimumf_apply, minimumf_apply, minimumf_apply, addf_apply, row4_val, nb4_val, lo4_val,
    half_val x0 x1 1920 128 1792 _ _ (by norm_num) (by norm_num) _ (mat4_val x0 x1) i l (128 * 15 + l.val) (by omega) (by omega),
    half_val x0 x1 2048 0 2048 _ _ (by norm_num) (by norm_num) _ (mat_val x0 x1 2048 _ (by norm_num)) i l (128 * 16 + l.val) (by omega) (by omega),
    half_val x0 x1 2176 128 2048 _ _ (by norm_num) (by norm_num) _ (mat_val x0 x1 2048 _ (by norm_num)) i l (128 * 17 + l.val) (by omega) (by omega),
    RN_succ _ _ 17, RN_succ _ _ 16, RN_succ _ _ 15, RN_succ _ _ 14]
  rfl

theorem sum5_val (y : S1x1.Idx) : sum5 x0 x1 y = SN (cloud x0) (cloud x1) 9 := by
  show addf (addf (sum4 x0 x1) (gCol 1792 slices_S1x4096_o0_1792_S1x256 (k0_pay4 x0) (k0_pay5 x1) (mat4 x0 x1)))
      (gCol 2048 slices_S1x4096_o0_2048_S1x256 (k0_pay4 x0) (k0_pay5 x1)
        (gMat 2048 slices_S4096x3_o2048_0_S256x3 (k0_pay2 x0) (k0_pay3 x1))) y = _
  rw [addf_apply, addf_apply, sum4_val, col_val x0 x1 1792 _ (by norm_num) _ (mat4_val x0 x1),
    col_val x0 x1 2048 _ (by norm_num) _ (mat_val x0 x1 2048 _ (by norm_num)), SN_succ _ _ 8, SN_succ _ _ 7]

theorem mat5_val (i : Fin 4096) (k : Fin 256) :
    mat5 x0 x1 (ix2 i k) = ipN (cloud x0) (cloud x1) i (2304 + k.val) :=
  mat_val x0 x1 2304 slices_S4096x3_o2304_0_S256x3 (by norm_num) i k

theorem lo5_val (i : Fin 4096) (l : Fin 128) :
    lo5 x0 x1 (ix2 i l) = ipN (cloud x0) (cloud x1) i (2304 + l.val) :=
  lo_val x0 x1 2304 slices_S4096x3_o2304_0_S256x3 (by norm_num) i l

theorem nb5_val (i : Fin 4096) (l : Fin 128) :
    nb5 x1 (ix2 i l) = sqN (cloud x1) (2304 + l.val) :=
  nb_val x1 2304 slices_S1x4096_o0_2304_S1x128 (by norm_num) i l

/-! ### Stretch 6: half-chunks 18..21 of the rows, chunks 9 and 10 of the columns; pending chunk 11 -/

theorem row6_val (i : Fin 4096) (l : Fin 128) :
    row6 x0 x1 (ix2 i l) = RN (cloud x0) (cloud x1) 22 i l.val := by
  show minimumf (minimumf (minimumf (minimumf (row5 x0 x1) (addf (nb5 x1) (lo5 x0 x1)))
      (gHalf 2432 128 slices_S1x4096_o0_2432_S1x128 slices_S4096x256_o0_128_S4096x128 (k0_pay5 x1) (mat5 x0 x1)))
      (gHalf 2560 0 slices_S1x4096_o0_2560_S1x128 slices_S4096x256_o0_0_S4096x128 (k0_pay5 x1)
        (gMat 2560 slices_S4096x3_o2560_0_S256x3 (k0_pay2 x0) (k0_pay3 x1))))
      (gHalf 2688 128 slices_S1x4096_o0_2688_S1x128 slices_S4096x256_o0_128_S4096x128 (k0_pay5 x1)
        (gMat 2560 slices_S4096x3_o2560_0_S256x3 (k0_pay2 x0) (k0_pay3 x1))) (ix2 i l) = _
  rw [minimumf_apply, minimumf_apply, minimumf_apply, minimumf_apply, addf_apply, row5_val, nb5_val, lo5_val,
    half_val x0 x1 2432 128 2304 _ _ (by norm_num) (by norm_num) _ (mat5_val x0 x1) i l (128 * 19 + l.val) (by omega) (by omega),
    half_val x0 x1 2560 0 2560 _ _ (by norm_num) (by norm_num) _ (mat_val x0 x1 2560 _ (by norm_num)) i l (128 * 20 + l.val) (by omega) (by omega),
    half_val x0 x1 2688 128 2560 _ _ (by norm_num) (by norm_num) _ (mat_val x0 x1 2560 _ (by norm_num)) i l (128 * 21 + l.val) (by omega) (by omega),
    RN_succ _ _ 21, RN_succ _ _ 20, RN_succ _ _ 19, RN_succ _ _ 18]
  rfl

theorem sum6_val (y : S1x1.Idx) : sum6 x0 x1 y = SN (cloud x0) (cloud x1) 11 := by
  show addf (addf (sum5 x0 x1) (gCol 2304 slices_S1x4096_o0_2304_S1x256 (k0_pay4 x0) (k0_pay5 x1) (mat5 x0 x1)))
      (gCol 2560 slices_S1x4096_o0_2560_S1x256 (k0_pay4 x0) (k0_pay5 x1)
        (gMat 2560 slices_S4096x3_o2560_0_S256x3 (k0_pay2 x0) (k0_pay3 x1))) y = _
  rw [addf_apply, addf_apply, sum5_val, col_val x0 x1 2304 _ (by norm_num) _ (mat5_val x0 x1),
    col_val x0 x1 2560 _ (by norm_num) _ (mat_val x0 x1 2560 _ (by norm_num)), SN_succ _ _ 10, SN_succ _ _ 9]

theorem mat6_val (i : Fin 4096) (k : Fin 256) :
    mat6 x0 x1 (ix2 i k) = ipN (cloud x0) (cloud x1) i (2816 + k.val) :=
  mat_val x0 x1 2816 slices_S4096x3_o2816_0_S256x3 (by norm_num) i k

theorem lo6_val (i : Fin 4096) (l : Fin 128) :
    lo6 x0 x1 (ix2 i l) = ipN (cloud x0) (cloud x1) i (2816 + l.val) :=
  lo_val x0 x1 2816 slices_S4096x3_o2816_0_S256x3 (by norm_num) i l

theorem nb6_val (i : Fin 4096) (l : Fin 128) :
    nb6 x1 (ix2 i l) = sqN (cloud x1) (2816 + l.val) :=
  nb_val x1 2816 slices_S1x4096_o0_2816_S1x128 (by norm_num) i l

/-! ### Stretch 7: half-chunks 22..25 of the rows, chunks 11 and 12 of the columns; pending chunk 13 -/

theorem row7_val (i : Fin 4096) (l : Fin 128) :
    row7 x0 x1 (ix2 i l) = RN (cloud x0) (cloud x1) 26 i l.val := by
  show minimumf (minimumf (minimumf (minimumf (row6 x0 x1) (addf (nb6 x1) (lo6 x0 x1)))
      (gHalf 2944 128 slices_S1x4096_o0_2944_S1x128 slices_S4096x256_o0_128_S4096x128 (k0_pay5 x1) (mat6 x0 x1)))
      (gHalf 3072 0 slices_S1x4096_o0_3072_S1x128 slices_S4096x256_o0_0_S4096x128 (k0_pay5 x1)
        (gMat 3072 slices_S4096x3_o3072_0_S256x3 (k0_pay2 x0) (k0_pay3 x1))))
      (gHalf 3200 128 slices_S1x4096_o0_3200_S1x128 slices_S4096x256_o0_128_S4096x128 (k0_pay5 x1)
        (gMat 3072 slices_S4096x3_o3072_0_S256x3 (k0_pay2 x0) (k0_pay3 x1))) (ix2 i l) = _
  rw [minimumf_apply, minimumf_apply, minimumf_apply, minimumf_apply, addf_apply, row6_val, nb6_val, lo6_val,
    half_val x0 x1 2944 128 2816 _ _ (by norm_num) (by norm_num) _ (mat6_val x0 x1) i l (128 * 23 + l.val) (by omega) (by omega),
    half_val x0 x1 3072 0 3072 _ _ (by norm_num) (by norm_num) _ (mat_val x0 x1 3072 _ (by norm_num)) i l (128 * 24 + l.val) (by omega) (by omega),
    half_val x0 x1 3200 128 3072 _ _ (by norm_num) (by norm_num) _ (mat_val x0 x1 3072 _ (by norm_num)) i l (128 * 25 + l.val) (by omega) (by omega),
    RN_succ _ _ 25, RN_succ _ _ 24, RN_succ _ _ 23, RN_succ _ _ 22]
  rfl

theorem sum7_val (y : S1x1.Idx) : sum7 x0 x1 y = SN (cloud x0) (cloud x1) 13 := by
  show addf (addf (sum6 x0 x1) (gCol 2816 slices_S1x4096_o0_2816_S1x256 (k0_pay4 x0) (k0_pay5 x1) (mat6 x0 x1)))
      (gCol 3072 slices_S1x4096_o0_3072_S1x256 (k0_pay4 x0) (k0_pay5 x1)
        (gMat 3072 slices_S4096x3_o3072_0_S256x3 (k0_pay2 x0) (k0_pay3 x1))) y = _
  rw [addf_apply, addf_apply, sum6_val, col_val x0 x1 2816 _ (by norm_num) _ (mat6_val x0 x1),
    col_val x0 x1 3072 _ (by norm_num) _ (mat_val x0 x1 3072 _ (by norm_num)), SN_succ _ _ 12, SN_succ _ _ 11]

theorem mat7_val (i : Fin 4096) (k : Fin 256) :
    mat7 x0 x1 (ix2 i k) = ipN (cloud x0) (cloud x1) i (3328 + k.val) :=
  mat_val x0 x1 3328 slices_S4096x3_o3328_0_S256x3 (by norm_num) i k

theorem lo7_val (i : Fin 4096) (l : Fin 128) :
    lo7 x0 x1 (ix2 i l) = ipN (cloud x0) (cloud x1) i (3328 + l.val) :=
  lo_val x0 x1 3328 slices_S4096x3_o3328_0_S256x3 (by norm_num) i l

theorem nb7_val (i : Fin 4096) (l : Fin 128) :
    nb7 x1 (ix2 i l) = sqN (cloud x1) (3328 + l.val) :=
  nb_val x1 3328 slices_S1x4096_o0_3328_S1x128 (by norm_num) i l

/-! ### Stretch 8: half-chunks 26..29 of the rows, chunks 13 and 14 of the columns; pending chunk 15 -/

theorem row8_val (i : Fin 4096) (l : Fin 128) :
    row8 x0 x1 (ix2 i l) = RN (cloud x0) (cloud x1) 30 i l.val := by
  show minimumf (minimumf (minimumf (minimumf (row7 x0 x1) (addf (nb7 x1) (lo7 x0 x1)))
      (gHalf 3456 128 slices_S1x4096_o0_3456_S1x128 slices_S4096x256_o0_128_S4096x128 (k0_pay5 x1) (mat7 x0 x1)))
      (gHalf 3584 0 slices_S1x4096_o0_3584_S1x128 slices_S4096x256_o0_0_S4096x128 (k0_pay5 x1)
        (gMat 3584 slices_S4096x3_o3584_0_S256x3 (k0_pay2 x0) (k0_pay3 x1))))
      (gHalf 3712 128 slices_S1x4096_o0_3712_S1x128 slices_S4096x256_o0_128_S4096x128 (k0_pay5 x1)
        (gMat 3584 slices_S4096x3_o3584_0_S256x3 (k0_pay2 x0) (k0_pay3 x1))) (ix2 i l) = _
  rw [minimumf_apply, minimumf_apply, minimumf_apply, minimumf_apply, addf_apply, row7_val, nb7_val, lo7_val,
    half_val x0 x1 3456 128 3328 _ _ (by norm_num) (by norm_num) _ (mat7_val x0 x1) i l (128 * 27 + l.val) (by omega) (by omega),
    half_val x0 x1 3584 0 3584 _ _ (by norm_num) (by norm_num) _ (mat_val x0 x1 3584 _ (by norm_num)) i l (128 * 28 + l.val) (by omega) (by omega),
    half_val x0 x1 3712 128 3584 _ _ (by norm_num) (by norm_num) _ (mat_val x0 x1 3584 _ (by norm_num)) i l (128 * 29 + l.val) (by omega) (by omega),
    RN_succ _ _ 29, RN_succ _ _ 28, RN_succ _ _ 27, RN_succ _ _ 26]
  rfl

theorem sum8_val (y : S1x1.Idx) : sum8 x0 x1 y = SN (cloud x0) (cloud x1) 15 := by
  show addf (addf (sum7 x0 x1) (gCol 3328 slices_S1x4096_o0_3328_S1x256 (k0_pay4 x0) (k0_pay5 x1) (mat7 x0 x1)))
      (gCol 3584 slices_S1x4096_o0_3584_S1x256 (k0_pay4 x0) (k0_pay5 x1)
        (gMat 3584 slices_S4096x3_o3584_0_S256x3 (k0_pay2 x0) (k0_pay3 x1))) y = _
  rw [addf_apply, addf_apply, sum7_val, col_val x0 x1 3328 _ (by norm_num) _ (mat7_val x0 x1),
    col_val x0 x1 3584 _ (by norm_num) _ (mat_val x0 x1 3584 _ (by norm_num)), SN_succ _ _ 14, SN_succ _ _ 13]

theorem mat8_val (i : Fin 4096) (k : Fin 256) :
    mat8 x0 x1 (ix2 i k) = ipN (cloud x0) (cloud x1) i (3840 + k.val) :=
  mat_val x0 x1 3840 slices_S4096x3_o3840_0_S256x3 (by norm_num) i k

theorem lo8_val (i : Fin 4096) (l : Fin 128) :
    lo8 x0 x1 (ix2 i l) = ipN (cloud x0) (cloud x1) i (3840 + l.val) :=
  lo_val x0 x1 3840 slices_S4096x3_o3840_0_S256x3 (by norm_num) i l

theorem nb8_val (i : Fin 4096) (l : Fin 128) :
    nb8 x1 (ix2 i l) = sqN (cloud x1) (3840 + l.val) :=
  nb_val x1 3840 slices_S1x4096_o0_3840_S1x128 (by norm_num) i l

/-! ### The last stretch: half-chunks 30 and 31, chunk 15, the row direction's end, and the accumulator -/

theorem acc_val (xs : Vec Ideal S1x1 .f32) (y : S1x1.Idx) :
    acc x0 x1 xs y = xs y + ((SN (cloud x0) (cloud x1) 15 + CsO (cloud x0) (cloud x1) 3840)
      + ∑ i : Fin 4096, ((univ.inf fun l : Fin 128 => RN (cloud x0) (cloud x1) 32 i l.val) + sqnorm (cloud x0) i)) := by
  show shapeCast S1x1 (addf xs (addf (addf (sum8 x0 x1)
        (gCol 3840 slices_S1x4096_o0_3840_S1x256 (k0_pay4 x0) (k0_pay5 x1) (mat8 x0 x1)))
      (gRows (minimumf (minimumf (row8 x0 x1) (addf (nb8 x1) (lo8 x0 x1)))
        (gHalf 3968 128 slices_S1x4096_o0_3968_S1x128 slices_S4096x256_o0_128_S4096x128 (k0_pay5 x1) (mat8 x0 x1))) (k0_pay4 x0))))
    shapeCasts_S1x1_S1x1 y = _
  rw [shapeCast_self, addf_apply, addf_apply, addf_apply, sum8_val,
    col_val x0 x1 3840 _ (by norm_num) _ (mat8_val x0 x1), gRows_apply]
  refine congrArg₂ (fun a b : EReal => a + b) rfl (congrArg₂ (fun a b : EReal => a + b) rfl (Finset.sum_congr rfl fun i _ => ?_))
  rw [pay4_val]
  refine congrArg₂ (fun a b : EReal => a + b) (congrArg (Finset.inf univ) (funext fun l => ?_)) rfl
  rw [minimumf_apply, minimumf_apply, addf_apply, row8_val, nb8_val, lo8_val,
    half_val x0 x1 3968 128 3840 _ _ (by norm_num) (by norm_num) _ (mat8_val x0 x1) i l (128 * 31 + l.val) (by omega) (by omega),
    RN_succ _ _ 31, RN_succ _ _ 30]
  rfl

/-- One grid point: the accumulator's previous entry plus the batch's total. -/
theorem acc_tot (xs : Vec Ideal S1x1 .f32) (y : S1x1.Idx) :
    acc x0 x1 xs y = xs y + tot c2 (cloud x0) (cloud x1) := by
  rw [acc_val, show SN (cloud x0) (cloud x1) 15 + CsO (cloud x0) (cloud x1) 3840 = SN (cloud x0) (cloud x1) 16 from rfl, SN_all]
  unfold tot
  exact congrArg₂ (fun a b : EReal => a + b) rfl (congrArg₂ (fun a b : EReal => a + b) rfl (Finset.sum_congr rfl fun i _ => by rw [rows_all]))

/-- The zero block the first batch stores into the accumulator. -/
theorem pay54_val (y : S1x1.Idx) : k0_pay54 (F := Ideal) y = 0 := by
  show shapeCast S1x1 (broadcast S1x1 (Scalar.ofBits .f32 0x00000000#32)) shapeCasts_S1x1_S1x1 y = _
  rw [shapeCast_self, broadcast_apply]
  exact Ideal.ofBits_zero_f32

/-- The output block of the last batch: the accumulator's entry times the literal 2^-14. -/
theorem pay1_val (v : Vec Ideal S1x1 .f32) (y : S1x1.Idx) : k0_pay1 v y = v y * Ideal.ofBits .f32 0x38800000#32 := by
  show mulf (F := Ideal) v (broadcast S1x1 (Scalar.ofBits .f32 0x38800000#32)) y = _
  rw [mulf_apply, broadcast_apply]
  rfl

end body

end Cert.KernelIdeal.KVal

end
-- ==== Proof.ChamferKernelRun.lean ====
/-
  The fused program's run, read: what its result holds.

  The grid has four points, one per batch. The carried accumulator after point n is the accumulator after point n - 1
  (the zero block before the first point) plus the batch's total; the last point also writes the accumulator times 2^-14
  into the 1×1 output block, which the pipeline writes back to the 1×1 result array once, after the last point; the host
  then reshapes that array to a scalar. A point's input blocks are the batch's two clouds: block (n, 0, 0) of a
  4×4096×3 array read at (0, i, d) is the array at (n, i, d).
-/
import proofs.«146739_g19121194402254_cont_8to1_1531_27_alg».proof.Proof.Gen.KernelIdeal.Frame
import proofs.«146739_g19121194402254_cont_8to1_1531_27_alg».proof.Proof.ChamferKernelValue
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Pieces Cert.KernelIdeal.KVal Cert.Chamfer

variable (m : (ℓ : Loc nD τ sig) → Buf (Elt Ideal) ℓ) (ρ : Dev nD → PrngReg)

/-! ## The accumulator point by point -/

/-- The carried accumulator after point n. -/
def accAt (c : Dev nD) : (n : ℕ) → n < cfg0.N → Vec Ideal S1x1 .f32
  | 0, h => acc (iblk m c 0 ⟨0, h⟩) (iblk m c 1 ⟨0, h⟩) (k0_pay54 (F := Ideal))
  | n + 1, h => acc (iblk m c 0 ⟨n + 1, h⟩) (iblk m c 1 ⟨n + 1, h⟩) (accAt c n (Nat.lt_of_succ_lt h))

/-- What the run finds in the carried accumulator after each point is that. -/
theorem outs_snd (c : Dev nD) : ∀ (n : ℕ) (h : n < cfg0.N), (outsAt0 m c n h).2 = accAt m c n h
  | 0, h => by
    have h1 : ¬(⟨0, h⟩ : Fin cfg0.N).val % 4 = 3 := by dsimp only; omega
    refine (congrArg Prod.snd (outsAt0_A m c ⟨0, h⟩ rfl h1)).trans ?_
    exact scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _)
      ((hcond0_0 ⟨0, h⟩).mpr rfl) (fun hh => h1 ((hcond0_1 ⟨0, h⟩).mp hh)) (iblk m c 0 ⟨0, h⟩) (iblk m c 1 ⟨0, h⟩)
  | n + 1, h => by
    have hN : cfg0.N = 4 := N_0
    have h0 : ¬(⟨n + 1, h⟩ : Fin cfg0.N).val % 4 = 0 := by dsimp only; omega
    by_cases h1 : (⟨n + 1, h⟩ : Fin cfg0.N).val % 4 = 3
    · refine (congrArg Prod.snd (outsAt0_C m c ⟨n + 1, h⟩ h0 h1)).trans ?_
      refine (scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
        (fun hh => h0 ((hcond0_0 ⟨n + 1, h⟩).mp hh)) ((hcond0_1 ⟨n + 1, h⟩).mpr h1)
        (iblk m c 0 ⟨n + 1, h⟩) (iblk m c 1 ⟨n + 1, h⟩) (outsAt0 m c n (Nat.lt_of_succ_lt h)).2).trans ?_
      exact congrArg (acc (iblk m c 0 ⟨n + 1, h⟩) (iblk m c 1 ⟨n + 1, h⟩)) (outs_snd c n (Nat.lt_of_succ_lt h))
    · refine (congrArg Prod.snd (outsAt0_B m c ⟨n + 1, h⟩ h0 h1)).trans ?_
      refine (scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
        (fun hh => h0 ((hcond0_0 ⟨n + 1, h⟩).mp hh)) (fun hh => h1 ((hcond0_1 ⟨n + 1, h⟩).mp hh))
        (iblk m c 0 ⟨n + 1, h⟩) (iblk m c 1 ⟨n + 1, h⟩) (outsAt0 m c n (Nat.lt_of_succ_lt h)).2).trans ?_
      exact congrArg (acc (iblk m c 0 ⟨n + 1, h⟩) (iblk m c 1 ⟨n + 1, h⟩)) (outs_snd c n (Nat.lt_of_succ_lt h))

theorem lt2 : 2 < cfg0.N := by rw [show cfg0.N = 4 from N_0]; decide

/-- The output block the last point leaves: the final accumulator times the literal 2^-14. -/
theorem outs_fst_last (c : Dev nD) : (outsAt0 m c t0_3.val t0_3.isLt).1 = k0_pay1 (accAt m c t0_3.val t0_3.isLt) := by
  have h0 : ¬t0_3.val % 4 = 0 := by decide
  have h1 : t0_3.val % 4 = 3 := rfl
  refine (congrArg Prod.fst (outsAt0_C m c t0_3 h0 h1)).trans ?_
  refine (out_C (F := Ideal) c (grid0.coords t0_3) (ms0_0 t0_3) (hs0_0 t0_3) (ms0_1 t0_3) (hs0_1 t0_3) (ms0_2 t0_3) (hs0_2 t0_3) scM0_0 (Memref.isWhole_whole _)
    (fun hh => h0 ((hcond0_0 t0_3).mp hh)) ((hcond0_1 t0_3).mpr h1)
    (iblk m c 0 t0_3) (iblk m c 1 t0_3) (outsAt0 m c 2 lt2).2).trans ?_
  exact congrArg (fun z => k0_pay1 (acc (iblk m c 0 t0_3) (iblk m c 1 t0_3) z)) (outs_snd m c 2 lt2)

/-! ## The result array and the host's reshape -/

/-- The one write-back, after the last point, writes the output block: block (0, 0) of the 1×1 array is the array. -/
theorem flushed_eq (c : Dev nD) (R : Buf (Elt Ideal) ((c : Thread nD τ).loc main_call0_v0))
    (hR : (outsAt0 m c t0_3.val t0_3.isLt).1 = R) (t : Fin cfg0.N) (hf : (cfg0.win 2).flush t = true) :
    (dats m 0 c).flushed 2 t = ((cfg0.win 2).blk t).view.read (Elt Ideal) R := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after0_2, hR]
  have hz' : (fun a => win0_2.index t0_3 a * main_call0_v0.ty.shape.size a) = fun _ => 0 :=
    funext fun a => by fin_cases a <;> decide
  exact (Memref.read_access_unit_zero (Elt Ideal) main_call0_v0 hz' (fun a => by rw [congrFun hz' a]; simp) R).symm

/-- So the 1×1 result array ends holding the output block of the last point. -/
theorem final_o (c : Dev nD) (R : Buf (Elt Ideal) ((c : Thread nD τ).loc main_call0_v0))
    (hR : (outsAt0 m c t0_3.val t0_3.isLt).1 = R) : (dats m 0 c).arrAt 2 cfg0.N = R :=
  (dats m 0 c).arrAt_eq_of_cover 2 R (flushed_eq m c R hR) fun i =>
    ⟨t0_3, (flush0_2 t0_3).mpr rfl, by
      show i ∈ ((View.whole main_call0_v0).slice (win0_2.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_3 0 * win0_2.size 0 ≤ (i 0 : Nat) ∧ (i 0 : Nat) < win0_2.index t0_3 0 * win0_2.size 0 + win0_2.xsize (grid0.coords t0_3) 0
                  rw [show win0_2.index t0_3 0 * win0_2.size 0 = 0 from by decide +kernel, show win0_2.xsize (grid0.coords t0_3) 0 = 1 from by decide +kernel]; omega
      | ⟨1, _⟩ => show win0_2.index t0_3 1 * win0_2.size 1 ≤ (i 1 : Nat) ∧ (i 1 : Nat) < win0_2.index t0_3 1 * win0_2.size 1 + win0_2.xsize (grid0.coords t0_3) 1
                  rw [show win0_2.index t0_3 1 * win0_2.size 1 = 0 from by decide +kernel, show win0_2.xsize (grid0.coords t0_3) 1 = 1 from by decide +kernel]; omega⟩

/-- The scalar result is no window's array. -/
theorem mem_rest : main_v0 ∈ Pipeline.restRefs sig (cfgs 0).spec := by decide

/-- The host's one operation after the region reshapes the 1×1 result array to the scalar. -/
theorem tail (c : Dev nD) : Pipeline.afterTail₀ cfgs (dats m) 0 (V0 m) [hostOps1] c main_v0
    = shapeCast S_ ((dats m 0 c).arrAt 2 cfg0.N) shapeCasts_S1x1_S_ := by
  unfold Pipeline.afterTail₀
  show StableHlo.after hostOps1 _ (Proc.devRef .tc main_v0) = _
  after_results
  exact congrArg (fun z : Buf (Elt Ideal) ((c : Thread nD τ).loc main_call0_v0) => shapeCast S_ z shapeCasts_S1x1_S_)
    (Pipeline.withArrays_arr spec0 launch0.win.arr_inj c _ _ 2)

/-- The program's result on device c. -/
def result (c : Dev nD) : Buf (Elt Ideal) ((c : Thread nD τ).loc main_v0) :=
  Pipeline.afterTail₀ cfgs (dats m) 0 (V0 m) [hostOps1] c main_v0

/-- The run, read: the result, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).2 main_v0 mem_rest,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-! ## The result as a number -/

/-- Batch t's total, over the point's input blocks. -/
def totAt (c : Dev nD) (t : Fin cfg0.N) : EReal := tot c2 (cloud (iblk m c 0 t)) (cloud (iblk m c 1 t))

/-- The running total after point n, from 0. -/
def chainN (c : Dev nD) : (n : ℕ) → n < cfg0.N → EReal
  | 0, h => 0 + totAt m c ⟨0, h⟩
  | n + 1, h => chainN c n (Nat.lt_of_succ_lt h) + totAt m c ⟨n + 1, h⟩

theorem accAt_val (c : Dev nD) (y : S1x1.Idx) : ∀ (n : ℕ) (h : n < cfg0.N), accAt m c n h y = chainN m c n h
  | 0, h => (acc_tot (iblk m c 0 ⟨0, h⟩) (iblk m c 1 ⟨0, h⟩) (k0_pay54 (F := Ideal)) y).trans (by
      rw [pay54_val]; rfl)
  | n + 1, h => (acc_tot (iblk m c 0 ⟨n + 1, h⟩) (iblk m c 1 ⟨n + 1, h⟩) (accAt m c n (Nat.lt_of_succ_lt h)) y).trans (by
      rw [accAt_val c y n (Nat.lt_of_succ_lt h)]; rfl)

/-- The scalar result: the running total after the last point times the literal 2^-14. -/
theorem result_val (c : Dev nD) (y : S_.Idx) :
    result m c y = chainN m c t0_3.val t0_3.isLt * Ideal.ofBits .f32 0x38800000#32 := by
  unfold result
  rw [tail m c, final_o m c _ (outs_fst_last m c)]
  refine (shapeCast_apply _ shapeCasts_S1x1_S_ y (ix2 (0 : Fin 1) (0 : Fin 1)) (by
    have h1 : (S1x1.rowMajor (ix2 (0 : Fin 1) (0 : Fin 1))).val < 1 := (S1x1.rowMajor _).isLt
    have h2 : (S_.rowMajor y).val < 1 := (S_.rowMajor y).isLt
    omega)).trans ?_
  rw [pay1_val, accAt_val]

/-! ## A point's input blocks are the batch's clouds -/

theorem iblk0_apply (c : Dev nD) (t : Fin cfg0.N) (i : Fin 4096) (d : Fin 3) (n : Fin 4) (hn : n.val = t.val) :
    (iblk m c 0 t : Vec Ideal S1x4096x3 .f32) (ix3 (0 : Fin 1) i d) = m ((c : Thread nD τ).loc main_arg0) (ix3 n i d) := by
  have hi : win0_0.index t 0 = t.val ∧ win0_0.index t 1 = 0 ∧ win0_0.index t 2 = 0 := by
    rcases fin_N0 t with rfl | rfl | rfl | rfl <;> decide
  unfold iblk
  rw [View.read_apply]
  show V m c main_arg0 _ = _
  rw [V_main_arg0]
  congr 1
  funext a
  apply Fin.ext
  match a with
  | ⟨0, _⟩ => show win0_0.index t 0 * 1 + 1 * (0 : ℕ) = n.val; rw [hi.1]; omega
  | ⟨1, _⟩ => show win0_0.index t 1 * 4096 + 1 * i.val = i.val; rw [hi.2.1]; omega
  | ⟨2, _⟩ => show win0_0.index t 2 * 3 + 1 * d.val = d.val; rw [hi.2.2]; omega

theorem iblk1_apply (c : Dev nD) (t : Fin cfg0.N) (i : Fin 4096) (d : Fin 3) (n : Fin 4) (hn : n.val = t.val) :
    (iblk m c 1 t : Vec Ideal S1x4096x3 .f32) (ix3 (0 : Fin 1) i d) = m ((c : Thread nD τ).loc main_arg1) (ix3 n i d) := by
  have hi : win0_1.index t 0 = t.val ∧ win0_1.index t 1 = 0 ∧ win0_1.index t 2 = 0 := by
    rcases fin_N0 t with rfl | rfl | rfl | rfl <;> decide
  unfold iblk
  rw [View.read_apply]
  show V m c main_arg1 _ = _
  rw [V_main_arg1]
  congr 1
  funext a
  apply Fin.ext
  match a with
  | ⟨0, _⟩ => show win0_1.index t 0 * 1 + 1 * (0 : ℕ) = n.val; rw [hi.1]; omega
  | ⟨1, _⟩ => show win0_1.index t 1 * 4096 + 1 * i.val = i.val; rw [hi.2.1]; omega
  | ⟨2, _⟩ => show win0_1.index t 2 * 3 + 1 * d.val = d.val; rw [hi.2.2]; omega

/-- Batch n of an argument array, as a cloud. -/
def batchOf (x : (⟨3, ![4, 4096, 3]⟩ : Shape).Idx → EReal) (n : Fin 4) : Fin 4096 → Fin 3 → EReal := fun i d => x (ix3 n i d)

theorem totAt_eq (c : Dev nD) (t : Fin cfg0.N) (n : Fin 4) (hn : n.val = t.val) :
    totAt m c t = tot c2 (batchOf (m ((c : Thread nD τ).loc main_arg0)) n) (batchOf (m ((c : Thread nD τ).loc main_arg1)) n) := by
  unfold totAt
  have e0 : cloud (iblk m c 0 t) = batchOf (m ((c : Thread nD τ).loc main_arg0)) n :=
    funext fun i => funext fun d => iblk0_apply m c t i d n hn
  have e1 : cloud (iblk m c 1 t) = batchOf (m ((c : Thread nD τ).loc main_arg1)) n :=
    funext fun i => funext fun d => iblk1_apply m c t i d n hn
  rw [e0, e1]

/-- The scalar result over the argument arrays. -/
theorem result_eq (c : Dev nD) (y : S_.Idx) :
    result m c y
      = ((((0 + tot c2 (batchOf (m ((c : Thread nD τ).loc main_arg0)) 0) (batchOf (m ((c : Thread nD τ).loc main_arg1)) 0))
          + tot c2 (batchOf (m ((c : Thread nD τ).loc main_arg0)) 1) (batchOf (m ((c : Thread nD τ).loc main_arg1)) 1))
          + tot c2 (batchOf (m ((c : Thread nD τ).loc main_arg0)) 2) (batchOf (m ((c : Thread nD τ).loc main_arg1)) 2))
          + tot c2 (batchOf (m ((c : Thread nD τ).loc main_arg0)) 3) (batchOf (m ((c : Thread nD τ).loc main_arg1)) 3))
        * Ideal.ofBits .f32 0x38800000#32 := by
  rw [result_val]
  show ((((0 + totAt m c ⟨0, _⟩) + totAt m c ⟨1, _⟩) + totAt m c ⟨2, _⟩) + totAt m c ⟨3, _⟩) * _ = _
  rw [totAt_eq m c ⟨0, _⟩ 0 rfl, totAt_eq m c ⟨1, _⟩ 1 rfl, totAt_eq m c ⟨2, _⟩ 2 rfl, totAt_eq m c ⟨3, _⟩ 3 rfl]

end Cert.KernelIdeal.Final

end
-- ==== Proof.ChamferFinite.lean ====
/-
  The precondition read at an element: every entry of both argument arrays is a real number.

  The precondition is the conjunction of two tests, one per argument: at every index |x| < +∞, all of them folded by
  "and" into one bit. A fold by "and" that is 1 had a 1 at every index; and |x| = max x (-x) is below +∞ exactly when
  x is neither infinity.
-/
import proofs.«146739_g19121194402254_cont_8to1_1531_27_alg».proof.Proof.Gen.Pre_finite_inputs
import proofs.«146739_g19121194402254_cont_8to1_1531_27_alg».proof.Proof.ChamferConsts
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

open Idealize.ShloMosaic

namespace Cert.Chamfer.Finite

open Cert.Pre_finite_inputs

instance : Subsingleton S_.Idx := ⟨fun a b => funext fun d => d.elim0⟩

/-- An extended real whose magnitude is below +∞ is a real number. -/
theorem real_of_test (x : EReal)
    (h : Ideal.cmp .olt (max x (-x)) (Ideal.ofBits .f32 0x7F800000#32) = 1#1) : ∃ r : ℝ, x = (r : EReal) := by
  rw [Cert.Chamfer.ofBits_top] at h
  induction x using EReal.rec with
  | bot => exact absurd h (by simp [Ideal.cmp])
  | top => exact absurd h (by simp [Ideal.cmp])
  | coe r => exact ⟨r, rfl⟩

/-- Under the precondition every entry of the two arrays is a real number. -/
theorem real_entries [Cert.Pre_finite_inputs.Facts] (a b : FVec Ideal S4x4096x3 .f32)
    (h : Cert.Pre_finite_inputs.fn (F := Ideal) a b = fun _ => 1#1) :
    (∀ i, ∃ r : ℝ, a i = (r : EReal)) ∧ (∀ i, ∃ r : ℝ, b i = (r : EReal)) := by
  have h0 := congrFun h ValueIdx.ix0
  dsimp only [Cert.Pre_finite_inputs.fn] at h0
  have h1 := (IntOp.andi_eq_one).mp h0
  have top_at : ∀ i : S4x4096x3.Idx,
      broadcastInDim S4x4096x3 ![] Facts.bcast_S_S4x4096x3 (constant (F := Ideal) S_ .f32 0x7F800000#32) i
        = Ideal.ofBits .f32 0x7F800000#32 :=
    fun i => broadcastInDim_apply _ _ _ i ValueIdx.ix0 (fun a => a.elim0)
  refine ⟨fun i => ?_, fun i => ?_⟩
  · have e := Host.reduce_andi_all _ _ _ _ _ h1.1 i
    exact real_of_test (a i) (by
      rw [← top_at i]
      exact e)
  · have e := Host.reduce_andi_all _ _ _ _ _ h1.2 i
    exact real_of_test (b i) (by
      rw [← top_at i]
      exact e)

end Cert.Chamfer.Finite

end
-- ==== Proof.ChamferBridge.lean ====
/-
  The two programs compute one number.

  Under the precondition every coordinate is real. Batch by batch the fused program's total is then the two directions'
  sums of nearest squared distances (the squared norms leave the minima, the scaled products are minus twice the plain
  ones); its running total over the four batches, times 2^-14, is the plain program's two sums, each from 0 and divided by
  16384 — a division by the real 16384 is the product with 1/16384, and that non-negative factor distributes over the sum.
-/
import proofs.«146739_g19121194402254_cont_8to1_1531_27_alg».proof.Proof.ChamferReference
import proofs.«146739_g19121194402254_cont_8to1_1531_27_alg».proof.Proof.ChamferKernelRun
import proofs.«146739_g19121194402254_cont_8to1_1531_27_alg».proof.Proof.ChamferFinite

noncomputable section

open Idealize.ShloMosaic Idealize.ShloMosaic.TcCoe Idealize.SL.Sem Idealize.ShloMosaic.ValueIdx Finset

namespace Cert.Proof.Bridge

open Cert.Chamfer

/-- Over real coordinates: the fused program's running total over four batches, scaled by 1/16384, is the plain
    program's two means. -/
theorem loss_eq {n : ℕ} (a b : Fin 4 → Fin n → Fin 3 → ℝ) :
    ((((0 + tot ((-2 : ℝ) : EReal) (fun i d => ((a 0 i d : ℝ) : EReal)) (fun i d => ((b 0 i d : ℝ) : EReal)))
        + tot ((-2 : ℝ) : EReal) (fun i d => ((a 1 i d : ℝ) : EReal)) (fun i d => ((b 1 i d : ℝ) : EReal)))
        + tot ((-2 : ℝ) : EReal) (fun i d => ((a 2 i d : ℝ) : EReal)) (fun i d => ((b 2 i d : ℝ) : EReal)))
        + tot ((-2 : ℝ) : EReal) (fun i d => ((a 3 i d : ℝ) : EReal)) (fun i d => ((b 3 i d : ℝ) : EReal))) * ((1 / 16384 : ℝ) : EReal)
      = (0 + ∑ k : Fin 4, ∑ i, near ((2 : ℝ) : EReal) (fun i d => ((a k i d : ℝ) : EReal)) (fun i d => ((b k i d : ℝ) : EReal)) i) * ((1 / 16384 : ℝ) : EReal)
        + (0 + ∑ k : Fin 4, ∑ j, near ((2 : ℝ) : EReal) (fun i d => ((b k i d : ℝ) : EReal)) (fun i d => ((a k i d : ℝ) : EReal)) j) * ((1 / 16384 : ℝ) : EReal) := by
  rw [tot_eq (a 0) (b 0), tot_eq (a 1) (b 1), tot_eq (a 2) (b 2), tot_eq (a 3) (b 3)]
  exact mean_four
    (fun k => ∑ j, near ((2 : ℝ) : EReal) (fun i d => ((b k i d : ℝ) : EReal)) (fun i d => ((a k i d : ℝ) : EReal)) j)
    (fun k => ∑ i, near ((2 : ℝ) : EReal) (fun i d => ((a k i d : ℝ) : EReal)) (fun i d => ((b k i d : ℝ) : EReal)) i) (1 / 16384) (by norm_num)

/-- On one device: the plain program's result over the fused program's arguments is the fused program's result. -/
theorem bridge (m : (ℓ : Loc Cert.KernelIdeal.nD Cert.KernelIdeal.τ Cert.KernelIdeal.sig) → Buf (Elt Ideal) ℓ)
    (c : Dev Cert.KernelIdeal.nD)
    (hp : Cert.Pre_finite_inputs.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = fun _ => 1#1) :
    Cert.ReferenceIdeal.Read.val_main_v32 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Final.result m c := by
  funext y
  obtain ⟨hA, hB⟩ := Cert.Chamfer.Finite.real_entries _ _ hp
  choose a ha using hA
  choose b hb using hB
  have eA : ∀ n : Fin 4, Cert.KernelIdeal.Final.batchOf
      (m ((c.tc : Thread Cert.KernelIdeal.nD Cert.KernelIdeal.τ).loc Cert.KernelIdeal.main_arg0)) n
        = fun i d => ((a (ix3 n i d) : ℝ) : EReal) := fun n => funext fun i => funext fun d => ha _
  have eB : ∀ n : Fin 4, Cert.KernelIdeal.Final.batchOf
      (m ((c.tc : Thread Cert.KernelIdeal.nD Cert.KernelIdeal.τ).loc Cert.KernelIdeal.main_arg1)) n
        = fun i d => ((b (ix3 n i d) : ℝ) : EReal) := fun n => funext fun i => funext fun d => hb _
  have eA' : ∀ n : Fin 4, Cert.ReferenceIdeal.RefValue.batch
      (m ((c.tc : Thread Cert.KernelIdeal.nD Cert.KernelIdeal.τ).loc Cert.KernelIdeal.main_arg0)) n
        = fun i d => ((a (ix3 n i d) : ℝ) : EReal) := eA
  have eB' : ∀ n : Fin 4, Cert.ReferenceIdeal.RefValue.batch
      (m ((c.tc : Thread Cert.KernelIdeal.nD Cert.KernelIdeal.τ).loc Cert.KernelIdeal.main_arg1)) n
        = fun i d => ((b (ix3 n i d) : ℝ) : EReal) := eB
  rw [Cert.ReferenceIdeal.RefValue.result_apply, Cert.KernelIdeal.Final.result_eq]
  simp only [eA, eB, eA', eB', Cert.KernelIdeal.KVal.c2, Cert.ReferenceIdeal.RefValue.two, ofBits_neg_two, ofBits_two,
    ofBits_16384, ofBits_inv_16384]
  rw [Ideal.div_coe (by norm_num : (16384 : ℝ) ≠ 0), Ideal.div_coe (by norm_num : (16384 : ℝ) ≠ 0)]
  exact (loss_eq (fun n i d => a (ix3 n i d)) (fun n i d => b (ix3 n i d))).symm

end Cert.Proof.Bridge

end
-- ==== Proof.lean ====
/-
  A symmetric chamfer loss between two batches of point clouds (4 batches, 4096 points, 3 coordinates): for every point
  the squared distance to the nearest point of the other cloud, averaged over all points, in both directions.

  The plain program builds each 4096×4096 table of squared distances as (|a_i|² + |b_j|²) - 2·⟨a_i, b_j⟩ and takes row
  minima, once per direction. The fused kernel walks the batches on a grid of four points; per batch it forms the scaled
  products Σ_d a_id·(-2·b_jd) in sixteen column chunks, folds each chunk into running row minima of |b_j|² + (product)
  and into a running total of column minima of |a_i|² + (product), adds the minimised side's squared norm after the
  minimum, carries the total across the batches in an accumulator, and scales by 2^-14 = 1/(4·4096) at the end. Over the
  extended reals, for finite inputs, both are one number (Proof/ChamferBridge.lean); the kernel's run and frames are the
  generated ones, read through the accumulator's values point by point (Proof/ChamferKernelRun.lean), the reference's
  run is the generated one, read operation by operation (Proof/ChamferReference.lean). The ideal pass rewrote nothing.
-/
import proofs.«146739_g19121194402254_cont_8to1_1531_27_alg».proof.Defs
import proofs.«146739_g19121194402254_cont_8to1_1531_27_alg».proof.Proof.Gen.Kernel
import proofs.«146739_g19121194402254_cont_8to1_1531_27_alg».proof.Proof.Gen.Kernel.Frame
import proofs.«146739_g19121194402254_cont_8to1_1531_27_alg».proof.Proof.Gen.KernelIdeal
import proofs.«146739_g19121194402254_cont_8to1_1531_27_alg».proof.Proof.Gen.KernelIdeal.Frame
import proofs.«146739_g19121194402254_cont_8to1_1531_27_alg».proof.Proof.Gen.ReferenceIdeal
import proofs.«146739_g19121194402254_cont_8to1_1531_27_alg».proof.Proof.Gen.ReferenceIdeal.Run
import proofs.«146739_g19121194402254_cont_8to1_1531_27_alg».proof.Proof.Gen.ReferenceIdeal.Read
import proofs.«146739_g19121194402254_cont_8to1_1531_27_alg».proof.Proof.Gen.Pre_finite_inputs
import proofs.«146739_g19121194402254_cont_8to1_1531_27_alg».proof.Proof.ChamferBridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the arguments both programs end at the same loss. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2]
  exact Cert.Proof.Bridge.bridge m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
